-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x7x7 : Shape := ⟨4, ![1024, 256, 7, 7]⟩
abbrev S80x256 : Shape := ⟨2, ![80, 256]⟩
abbrev S80 : Shape := ⟨1, ![80]⟩
abbrev S320x256 : Shape := ⟨2, ![320, 256]⟩
abbrev S320 : Shape := ⟨1, ![320]⟩
abbrev S_ : Shape := ⟨0, ![]⟩

class Facts : Prop where
  bcast_S_S1024x256x7x7 : S_.BroadcastsInDim S1024x256x7x7 (![] : Fin 0 → Fin S1024x256x7x7.rank)
  reducesTo_S1024x256x7x7_S_d0_1_2_3 : S1024x256x7x7.ReducesTo [0, 1, 2, 3] S_
  h_S_ : 0 < S_.numel
  bcast_S_S80x256 : S_.BroadcastsInDim S80x256 (![] : Fin 0 → Fin S80x256.rank)
  reducesTo_S80x256_S_d0_1 : S80x256.ReducesTo [0, 1] S_
  bcast_S_S80 : S_.BroadcastsInDim S80 (![] : Fin 0 → Fin S80.rank)
  reducesTo_S80_S_d0 : S80.ReducesTo [0] S_
  bcast_S_S320x256 : S_.BroadcastsInDim S320x256 (![] : Fin 0 → Fin S320x256.rank)
  reducesTo_S320x256_S_d0_1 : S320x256.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S320 .f32) (main_v13 : IVec S_ 1) (main_v16 : IVec S320x256 1) : IVec S_ 1 :=
  let main_c_5 : IVec S_ 1 := constantI S_ 1 1#1
  let main_v17 : IVec S_ 1 := (fun x v => Host.reduce IntOp.andi x v reducesTo_S320x256_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S1024x256x7x7 .f32) (main_arg1 : FVec F S80x256 .f32) (main_arg2 : FVec F S80 .f32) (main_arg3 : FVec F S320x256 .f32) (main_arg4 : FVec F S320 .f32) : IVec S_ 1 :=
  let main_v0 : FVec F S1024x256x7x7 .f32 := Host.absf main_arg0
  let main_cst : FVec F S_ .f32 := constant S_ .f32 0x7F800000#32
  let main_v1 : FVec F S1024x256x7x7 .f32 := broadcastInDim S1024x256x7x7 ![] bcast_S_S1024x256x7x7 main_cst
  let main_v2 : IVec S1024x256x7x7 1 := cmpf .olt main_v0 main_v1
  let main_c : IVec S_ 1 := constantI S_ 1 1#1
  let main_v3 : IVec S_ 1 := (fun x v => Host.reduce IntOp.andi x v reducesTo_S1024x256x7x7_S_d0_1_2_3 h_S_) main_v2 main_c
  let main_v4 : FVec F S80x256 .f32 := Host.absf main_arg1
  let main_cst_0 : FVec F S_ .f32 := constant S_ .f32 0x7F800000#32
  let main_v5 : FVec F S80x256 .f32 := broadcastInDim S80x256 ![] bcast_S_S80x256 main_cst_0
  let main_v6 : IVec S80x256 1 := cmpf .olt main_v4 main_v5
  let main_c_1 : IVec S_ 1 := constantI S_ 1 1#1
  let main_v7 : IVec S_ 1 := (fun x v => Host.reduce IntOp.andi x v reducesTo_S80x256_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S320x256 .f32 := Host.absf main_arg3
  let main_cst_4 : FVec F S_ .f32 := constant S_ .f32 0x7F800000#32
  let main_v15 : FVec F S320x256 .f32 := broadcastInDim S320x256 ![] bcast_S_S320x256 main_cst_4
  let main_v16 : IVec S320x256 1 := cmpf .olt main_v14 main_v15
  fn_part1 (F := F) main_arg4 main_v13 main_v16
-- ==== Kernel.lean ====
abbrev S1024x256x7x7 : Shape := ⟨4, ![1024, 256, 7, 7]⟩
abbrev S80x256 : Shape := ⟨2, ![80, 256]⟩
abbrev S80 : Shape := ⟨1, ![80]⟩
abbrev S320x256 : Shape := ⟨2, ![320, 256]⟩
abbrev S320 : Shape := ⟨1, ![320]⟩
abbrev S7x7x1024x256 : Shape := ⟨4, ![7, 7, 1024, 256]⟩
abbrev S49x1024x256 : Shape := ⟨3, ![49, 1024, 256]⟩
abbrev S400x256 : Shape := ⟨2, ![400, 256]⟩
abbrev S400 : Shape := ⟨1, ![400]⟩
abbrev S400x1 : Shape := ⟨2, ![400, 1]⟩
abbrev S80x1024 : Shape := ⟨2, ![80, 1024]⟩
abbrev S320x1024 : Shape := ⟨2, ![320, 1024]⟩
abbrev S49x128x256 : Shape := ⟨3, ![49, 128, 256]⟩
abbrev S80x128 : Shape := ⟨2, ![80, 128]⟩
abbrev S320x128 : Shape := ⟨2, ![320, 128]⟩
abbrev S128x256 : Shape := ⟨2, ![128, 256]⟩
abbrev S400x128 : Shape := ⟨2, ![400, 128]⟩
abbrev S1024x80 : Shape := ⟨2, ![1024, 80]⟩
abbrev S1024x320 : Shape := ⟨2, ![1024, 320]⟩

abbrev nBuf : Space → Nat
  | .hbm => 14
  | .vmem => 8
  | .smem => 0
  | _ => 0

abbrev bufTy : (tb : Table) → Fin (tcTables nBuf tb) → BufTy
  | .hbm, ⟨0, _⟩ => ⟨S1024x256x7x7, .f32⟩
  | .hbm, ⟨1, _⟩ => ⟨S80x256, .f32⟩
  | .hbm, ⟨2, _⟩ => ⟨S80, .f32⟩
  | .hbm, ⟨3, _⟩ => ⟨S320x256, .f32⟩
  | .hbm, ⟨4, _⟩ => ⟨S320, .f32⟩
  | .hbm, ⟨5, _⟩ => ⟨S7x7x1024x256, .f32⟩
  | .hbm, ⟨6, _⟩ => ⟨S49x1024x256, .f32⟩
  | .hbm, ⟨7, _⟩ => ⟨S400x256, .f32⟩
  | .hbm, ⟨8, _⟩ => ⟨S400, .f32⟩
  | .hbm, ⟨9, _⟩ => ⟨S400x1, .f32⟩
  | .hbm, ⟨10, _⟩ => ⟨S80x1024, .f32⟩
  | .hbm, ⟨11, _⟩ => ⟨S320x1024, .f32⟩
  | .hbm, ⟨12, _⟩ => ⟨S1024x80, .f32⟩
  | .hbm, ⟨13, _⟩ => ⟨S1024x320, .f32⟩
  | .local _ .vmem, ⟨0, _⟩ => ⟨S49x128x256, .f32⟩
  | .local _ .vmem, ⟨1, _⟩ => ⟨S49x128x256, .f32⟩
  | .local _ .vmem, ⟨2, _⟩ => ⟨S400x256, .f32⟩
  | .local _ .vmem, ⟨3, _⟩ => ⟨S400x1, .f32⟩
  | .local _ .vmem, ⟨4, _⟩ => ⟨S80x128, .f32⟩
  | .local _ .vmem, ⟨5, _⟩ => ⟨S80x128, .f32⟩
  | .local _ .vmem, ⟨6, _⟩ => ⟨S320x128, .f32⟩
  | .local _ .vmem, ⟨7, _⟩ => ⟨S320x128, .f32⟩
  | _, _ => ⟨S1024x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S49x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S80x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1024x256x7x7_S7x7x1024x256_2_3_0_1 : S1024x256x7x7.Transposes [2, 3, 0, 1] S7x7x1024x256
  shapeCasts_S7x7x1024x256_S49x1024x256 : S7x7x1024x256.ShapeCasts S49x1024x256
  concatenates_S80x256_S320x256_S400x256_d0 : Shape.Concatenates [S80x256, S320x256] S400x256 0
  concatenates_S80_S320_S400_d0 : Shape.Concatenates [S80, S320] S400 0
  bcast_S400_S400x1_0 : S400.BroadcastsInDim S400x1 (![0] : Fin 1 → Fin S400x1.rank)
  inb_S49x128x256_S49x128x256_0_0_0 : ∀ a, (![0, 0, 0] : Fin 3 → Nat) a + S49x128x256.size a ≤ S49x128x256.size a
  h_S49x128x256 : 0 < S49x128x256.numel
  shapeCasts_S49x128x256_S49x128x256 : S49x128x256.ShapeCasts S49x128x256
  reduces_S49x128x256_S128x256 : S49x128x256.Reduces [0] S128x256
  inb_S400x256_S400x256_0_0 : ∀ a, (![0, 0] : Fin 2 → Nat) a + S400x256.size a ≤ S400x256.size a
  h_S400x256 : 0 < S400x256.numel
  shapeCasts_S400x256_S400x256 : S400x256.ShapeCasts S400x256
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x128 : S400x1.Broadcasts S400x128
  slices_S400x128_o0_0_S80x128 : S400x128.Slices ![0, 0] S80x128
  inb_S80x128_S80x128_0_0 : ∀ a, (![0, 0] : Fin 2 → Nat) a + S80x128.size a ≤ S80x128.size a
  h_S80x128 : 0 < S80x128.numel
  slices_S400x128_o80_0_S320x128 : S400x128.Slices ![80, 0] S320x128
  inb_S320x128_S320x128_0_0 : ∀ a, (![0, 0] : Fin 2 → Nat) a + S320x128.size a ≤ S320x128.size a
  h_S320x128 : 0 < S320x128.numel
  transposes_S80x1024_S1024x80_1_0 : S80x1024.Transposes [1, 0] S1024x80
  transposes_S320x1024_S1024x320_1_0 : S320x1024.Transposes [1, 0] S1024x320
  dot_S400x256_S128x256_S400x128_1_1_0_0_n_n_wf : DotDims.WF S400x256 S128x256 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x128x256.size a ≤ S49x1024x256.size a
  hwx0_0 : ∀ i : grid0.Coords, EltTy.bits .f32 = 32 ∨ (Rect.block (s := S49x1024x256) S49x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x256.size a ≤ S400x256.size a
  hwx0_1 : ∀ i : grid0.Coords, EltTy.bits .f32 = 32 ∨ (Rect.block (s := S400x256) S400x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S400x1.size a
  hwx0_2 : ∀ i : grid0.Coords, EltTy.bits .f32 = 32 ∨ (Rect.block (s := S400x1) S400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x128.size a ≤ S80x1024.size a
  hwx0_3 : ∀ i : grid0.Coords, EltTy.bits .f32 = 32 ∨ (Rect.block (s := S80x1024) S80x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x128.size a ≤ S320x1024.size a
  hwx0_4 : ∀ i : grid0.Coords, EltTy.bits .f32 = 32 ∨ (Rect.block (s := S320x1024) S320x128.size (cc0_transform_4 i) (hinb0_4 i)).WholeWords (EltTy.packing .f32)

variable [Facts₀]

def dot_S400x256_S128x256_S400x128_1_1_0_0_n_n : DotDims S400x256 S128x256 S400x128 where
  lhsContracting := [1]
  rhsContracting := [1]
  lhsNonContracting := [0]
  rhsNonContracting := [0]
  lhsBatch := []
  rhsBatch := []
  wf := dot_S400x256_S128x256_S400x128_1_1_0_0_n_n_wf

abbrev win0_0 : Pipeline.Window sig grid0 :=
  Pipeline.Window.ofSpec (Memref.whole main_v1) S49x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S400x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S80x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S320x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256x7x7 : Shape := ⟨4, ![1024, 256, 7, 7]⟩
abbrev S80x256 : Shape := ⟨2, ![80, 256]⟩
abbrev S80 : Shape := ⟨1, ![80]⟩
abbrev S320x256 : Shape := ⟨2, ![320, 256]⟩
abbrev S320 : Shape := ⟨1, ![320]⟩
abbrev S1x80 : Shape := ⟨2, ![1, 80]⟩
abbrev S1x320 : Shape := ⟨2, ![1, 320]⟩
abbrev S1024x256x49 : Shape := ⟨3, ![1024, 256, 49]⟩
abbrev S1024x80 : Shape := ⟨2, ![1024, 80]⟩
abbrev S1024x320 : Shape := ⟨2, ![1024, 320]⟩
abbrev S128x256x49 : Shape := ⟨3, ![128, 256, 49]⟩
abbrev S128x80 : Shape := ⟨2, ![128, 80]⟩
abbrev S128x320 : Shape := ⟨2, ![128, 320]⟩
abbrev S128x256 : Shape := ⟨2, ![128, 256]⟩

abbrev nBuf : Space → Nat
  | .hbm => 10
  | .vmem => 11
  | .smem => 0
  | _ => 0

abbrev bufTy : (tb : Table) → Fin (tcTables nBuf tb) → BufTy
  | .hbm, ⟨0, _⟩ => ⟨S1024x256x7x7, .f32⟩
  | .hbm, ⟨1, _⟩ => ⟨S80x256, .f32⟩
  | .hbm, ⟨2, _⟩ => ⟨S80, .f32⟩
  | .hbm, ⟨3, _⟩ => ⟨S320x256, .f32⟩
  | .hbm, ⟨4, _⟩ => ⟨S320, .f32⟩
  | .hbm, ⟨5, _⟩ => ⟨S1x80, .f32⟩
  | .hbm, ⟨6, _⟩ => ⟨S1x320, .f32⟩
  | .hbm, ⟨7, _⟩ => ⟨S1024x256x49, .f32⟩
  | .hbm, ⟨8, _⟩ => ⟨S1024x80, .f32⟩
  | .hbm, ⟨9, _⟩ => ⟨S1024x320, .f32⟩
  | .local _ .vmem, ⟨0, _⟩ => ⟨S128x256x49, .f32⟩
  | .local _ .vmem, ⟨1, _⟩ => ⟨S128x256x49, .f32⟩
  | .local _ .vmem, ⟨2, _⟩ => ⟨S80x256, .f32⟩
  | .local _ .vmem, ⟨3, _⟩ => ⟨S1x80, .f32⟩
  | .local _ .vmem, ⟨4, _⟩ => ⟨S320x256, .f32⟩
  | .local _ .vmem, ⟨5, _⟩ => ⟨S1x320, .f32⟩
  | .local _ .vmem, ⟨6, _⟩ => ⟨S128x80, .f32⟩
  | .local _ .vmem, ⟨7, _⟩ => ⟨S128x80, .f32⟩
  | .local _ .vmem, ⟨8, _⟩ => ⟨S128x320, .f32⟩
  | .local _ .vmem, ⟨9, _⟩ => ⟨S128x320, .f32⟩
  | .local _ .vmem, ⟨10, _⟩ => ⟨S128x256, .f32⟩
  | _, _ => ⟨S1024x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S80x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S80_S1x80 : S80.ShapeCasts S1x80
  shapeCasts_S320_S1x320 : S320.ShapeCasts S1x320
  shapeCasts_S1024x256x7x7_S1024x256x49 : S1024x256x7x7.ShapeCasts S1024x256x49
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x256x49_S128x256x49_0_0_0 : ∀ a, (![0, 0, 0] : Fin 3 → Nat) a + S128x256x49.size a ≤ S128x256x49.size a
  h_S128x256x49 : 0 < S128x256x49.numel
  shapeCasts_S128x256x49_S128x256x49 : S128x256x49.ShapeCasts S128x256x49
  reduces_S128x256x49_S128x256 : S128x256x49.Reduces [2] S128x256
  inb_S80x256_S80x256_0_0 : ∀ a, (![0, 0] : Fin 2 → Nat) a + S80x256.size a ≤ S80x256.size a
  h_S80x256 : 0 < S80x256.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S128x80 : S1x80.Broadcasts S128x80
  inb_S320x256_S320x256_0_0 : ∀ a, (![0, 0] : Fin 2 → Nat) a + S320x256.size a ≤ S320x256.size a
  h_S320x256 : 0 < S320x256.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S128x320 : S1x320.Broadcasts S128x320
  inb_S128x80_S128x80_0_0 : ∀ a, (![0, 0] : Fin 2 → Nat) a + S128x80.size a ≤ S128x80.size a
  h_S128x80 : 0 < S128x80.numel
  inb_S128x320_S128x320_0_0 : ∀ a, (![0, 0] : Fin 2 → Nat) a + S128x320.size a ≤ S128x320.size a
  h_S128x320 : 0 < S128x320.numel
  dot_S128x256_S80x256_S128x80_1_1_0_0_n_n_wf : DotDims.WF S128x256 S80x256 S128x80 [1] [1] [0] [0] [] []
  dot_S128x256_S320x256_S128x320_1_1_0_0_n_n_wf : DotDims.WF S128x256 S320x256 S128x320 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x49.size a ≤ S1024x256x49.size a
  hwx0_0 : ∀ i : grid0.Coords, EltTy.bits .f32 = 32 ∨ (Rect.block (s := S1024x256x49) S128x256x49.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x256.size a ≤ S80x256.size a
  hwx0_1 : ∀ i : grid0.Coords, EltTy.bits .f32 = 32 ∨ (Rect.block (s := S80x256) S80x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x256.size a ≤ S320x256.size a
  hwx0_3 : ∀ i : grid0.Coords, EltTy.bits .f32 = 32 ∨ (Rect.block (s := S320x256) S320x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x80.size a ≤ S1024x80.size a
  hwx0_5 : ∀ i : grid0.Coords, EltTy.bits .f32 = 32 ∨ (Rect.block (s := S1024x80) S128x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x320.size a ≤ S1024x320.size a
  hwx0_6 : ∀ i : grid0.Coords, EltTy.bits .f32 = 32 ∨ (Rect.block (s := S1024x320) S128x320.size (cc0_transform_6 i) (hinb0_6 i)).WholeWords (EltTy.packing .f32)

variable [Facts₀]

def dot_S128x256_S80x256_S128x80_1_1_0_0_n_n : DotDims S128x256 S80x256 S128x80 where
  lhsContracting := [1]
  rhsContracting := [1]
  lhsNonContracting := [0]
  rhsNonContracting := [0]
  lhsBatch := []
  rhsBatch := []
  wf := dot_S128x256_S80x256_S128x80_1_1_0_0_n_n_wf
def dot_S128x256_S320x256_S128x320_1_1_0_0_n_n : DotDims S128x256 S320x256 S128x320 where
  lhsContracting := [1]
  rhsContracting := [1]
  lhsNonContracting := [0]
  rhsNonContracting := [0]
  lhsBatch := []
  rhsBatch := []
  wf := dot_S128x256_S320x256_S128x320_1_1_0_0_n_n_wf

abbrev win0_0 : Pipeline.Window sig grid0 :=
  Pipeline.Window.ofSpec (Memref.whole main_v2) S128x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S128x80.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S128x320.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== Proof.PoolSpec.lean ====
/-
  The function both programs compute, written once, index by index, on the extended reals.

  A feature map `x[n, c, h, w]` (1024 samples, 256 channels, 7 × 7 positions) is averaged over its 49 positions —
  the sum over the positions times a fixed factor, the single-precision word nearest 1/49, which both programs carry
  as the same word and which is therefore never evaluated — and the pooled vector is sent through a linear head:
  `out[n, o] = Σ_c w[o, c] · pooled[n, c] + b[o]`. There are two heads, of 80 and of 320 outputs.

  One program writes each product as `w · pooled` and sums the positions from nothing; the other writes
  `pooled · w` and adds the positions' sum to a zero it stored first. On the extended reals `0 + s = s` and
  multiplication commutes, at the infinities too, so the two spellings are one function (`head_of_zero_add_comm`);
  no finiteness of the inputs is used.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The shape of the feature map: samples, channels, rows, columns. -/
abbrev Feat : Shape := ⟨4, ![1024, 256, 7, 7]⟩

/-- The factor the spatial sum is multiplied by: the single-precision word nearest `1/49`, read as the exact real it
    denotes. Both programs carry this same word. -/
abbrev scale : Ideal .f32 := Ideal.ofBits .f32 0x3CA72F05#32

/-- Row of spatial position `k` of the 49 (the 7 × 7 map in row-major order). -/
def cellRow (k : Fin 49) : Fin 7 := ⟨k.val / 7, by have := k.isLt; omega⟩
/-- Column of spatial position `k`. -/
def cellCol (k : Fin 49) : Fin 7 := ⟨k.val % 7, by omega⟩

/-- The sum of channel `c` of sample `n` over the 49 positions. -/
def spatialSum (x : Feat.Idx → Ideal .f32) (n : Fin 1024) (c : Fin 256) : Ideal .f32 :=
  ∑ k : Fin 49, x (ix4 n c (cellRow k) (cellCol k))

/-- Channel `c` of sample `n`, averaged over the positions: the sum times `scale`. -/
def pooled (x : Feat.Idx → Ideal .f32) (n : Fin 1024) (c : Fin 256) : Ideal .f32 := spatialSum x n c * scale

/-- One linear head with `O` outputs on the pooled features: output `o` of sample `n`. -/
def head {O : ℕ} (x : Feat.Idx → Ideal .f32) (w : (⟨2, ![O, 256]⟩ : Shape).Idx → Ideal .f32)
    (b : (⟨1, ![O]⟩ : Shape).Idx → Ideal .f32) (n : Fin 1024) (o : Fin O) : Ideal .f32 :=
  (∑ c : Fin 256, w (ix2 o c) * pooled x n c) + b (ix1 o)

/-- The head as a `[1024, O]` array. -/
def headArr {O : ℕ} (x : Feat.Idx → Ideal .f32) (w : (⟨2, ![O, 256]⟩ : Shape).Idx → Ideal .f32)
    (b : (⟨1, ![O]⟩ : Shape).Idx → Ideal .f32) : (⟨2, ![1024, O]⟩ : Shape).Idx → Ideal .f32 :=
  fun i => head x w b (i 0) (i 1)

theorem headArr_apply {O : ℕ} (x : Feat.Idx → Ideal .f32) (w : (⟨2, ![O, 256]⟩ : Shape).Idx → Ideal .f32)
    (b : (⟨1, ![O]⟩ : Shape).Idx → Ideal .f32) (n : Fin 1024) (o : Fin O) :
    headArr x w b (ix2 n o) = head x w b n o := rfl

/-- The other spelling of the same head: the positions' sum added to a stored zero, and each product written with the
    pooled value first. `0 + s = s` and `a · b = b · a` hold for all extended reals. -/
theorem head_of_zero_add_comm {O : ℕ} (x : Feat.Idx → Ideal .f32) (w : (⟨2, ![O, 256]⟩ : Shape).Idx → Ideal .f32)
    (b : (⟨1, ![O]⟩ : Shape).Idx → Ideal .f32) (n : Fin 1024) (o : Fin O) :
    (∑ c : Fin 256, ((Ideal.ofBits .f32 0x00000000#32 + spatialSum x n c) * scale) * w (ix2 o c)) + b (ix1 o)
      = head x w b n o := by
  unfold head pooled
  refine congrArg (· + b (ix1 o)) (Finset.sum_congr rfl fun c _ => ?_)
  rw [Ideal.ofBits_zero_f32, zero_add, mul_comm]

end Cert.Pool

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelBody.lean ====
/-
  The arithmetic of the first program's kernel body, read at an index on the extended reals.

  From a feature block `x0[k, q, c]` (49 positions, 128 samples, 256 channels), the stacked weights `x1[o, c]` (400 rows)
  and the stacked bias column `x2[o, 0]`, the body forms the pooled block `(Σ_k x0[k, q, c]) · s`, multiplies the weights'
  rows by the pooled block's rows contracting the channels, adds the bias column repeated across the samples, and cuts
  the 400 result rows into the first 80 and the last 320:
  `result[o, q] = Σ_c x1[o, c] · ((Σ_k x0[k, q, c]) · s) + x2[o, 0]`.
-/
import proofs.«176235_g2000607049309062_pallasbulk_253_30_alg».proof.Proof.Gen.KernelIdeal.Skeleton
import proofs.«176235_g2000607049309062_pallasbulk_253_30_alg».proof.Proof.PoolSpec
import proofs.«176235_g2000607049309062_pallasbulk_253_30_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-- The product's dimension record: rows of the stacked weights against rows of the pooled block, contracting the channels. -/
abbrev D : DotDims S400x256 S128x256 S400x128 := dot_S400x256_S128x256_S400x128_1_1_0_0_n_n

/-- The sum over the leading axis (the 49 positions) of a `[49, 128, 256]` block, at sample `q` and channel `c`. -/
theorem leadSum_apply (v : FVec Ideal S49x128x256 .f32) (h : S49x128x256.Reduces [0] S128x256) (hφ : FKind.Formats .f32)
    (hacc : (0x00000000#32 : BitVec 32) = FKind.add.neutral .f32 hφ) (q : Fin 128) (c : Fin 256) :
    multiReduction .add [0] S128x256 v 0x00000000#32 h hφ hacc (ix2 q c) = ∑ k : Fin 49, v (ix3 k q c) := by
  refine (Ideal.multiReduction_add_single v 0x00000000#32 h hφ hacc (ix2 q c)).trans ?_
  show ∑ k : Fin 49, v (h.lift (ix2 q c) k) = _
  refine Finset.sum_congr rfl fun k _ => congrArg v ?_
  funext a; apply Fin.ext
  match a with
  | ⟨0, _⟩ => rfl
  | ⟨1, _⟩ => rfl
  | ⟨2, _⟩ => rfl

/-- The left operand's index at output `(o, q)` and channel `c` is `(o, c)`. -/
theorem lhsIdx_eq (o : Fin 400) (q : Fin 128) (c : Fin 256) :
    D.lhsIdx (ix2 o q) ((contrEquiv1 D 256 rfl rfl).symm c) = ix2 o c := by
  funext a; apply Fin.ext
  match a with
  | ⟨0, _⟩ => rfl
  | ⟨1, _⟩ => exact (D.lhsIdx_val_of_single rfl _ _).trans (contrEquiv1_symm_val D 256 rfl rfl c)

/-- The right operand's index at output `(o, q)` and channel `c` is `(q, c)`. -/
theorem rhsIdx_eq (o : Fin 400) (q : Fin 128) (c : Fin 256) :
    D.rhsIdx (ix2 o q) ((contrEquiv1 D 256 rfl rfl).symm c) = ix2 q c := by
  funext a; apply Fin.ext
  match a with
  | ⟨0, _⟩ => rfl
  | ⟨1, _⟩ => exact (D.rhsIdx_val_of_single rfl _ _).trans (contrEquiv1_symm_val D 256 rfl rfl c)

/-- The body's result before it is cut in two: at row `o` of the stacked heads and sample `q` of the block, the row of
    weights against the block's pooled channels, plus the row's bias. -/
theorem pay1_apply (x0 : Vec Ideal S49x128x256 .f32) (x1 : Vec Ideal S400x256 .f32) (x2 : Vec Ideal S400x1 .f32)
    (o : Fin 400) (q : Fin 128) :
    k0_pay1 x0 x1 x2 (ix2 o q)
      = (∑ c : Fin 256, x1 (ix2 o c) * ((∑ k : Fin 49, x0 (ix3 k q c)) * Cert.Pool.scale)) + x2 (ix2 o (0 : Fin 1)) := by
  unfold k0_pay1
  simp only [shapeCast_self]
  refine (addf_apply _ _ _).trans ?_
  refine congrArg₂ (· + ·) ?_ (broadcastTo_a1_ab_apply x2 _ o q)
  refine (Ideal.matmul_constant_zero_apply D none x1 _ (ix2 o q)).trans ?_
  refine (Equiv.sum_comp (contrEquiv1 D 256 rfl rfl).symm _).symm.trans ?_
  refine Finset.sum_congr rfl fun c _ => ?_
  refine congrArg₂ (· * ·) (congrArg x1 (lhsIdx_eq o q c)) ?_
  refine (congrArg (mulf _ _) (rhsIdx_eq o q c)).trans ?_
  refine (mulf_apply _ _ _).trans ?_
  exact congrArg (· * Cert.Pool.scale) (leadSum_apply x0 _ _ _ q c)

/-- The first 80 rows of the body's result: the first head, transposed (output along the rows, samples along the columns). -/
theorem pay2_apply (x0 : Vec Ideal S49x128x256 .f32) (x1 : Vec Ideal S400x256 .f32) (x2 : Vec Ideal S400x1 .f32)
    (o : Fin 80) (q : Fin 128) :
    k0_pay2 x0 x1 x2 (ix2 o q) = k0_pay1 x0 x1 x2 (ix2 (⟨o.val, by omega⟩ : Fin 400) q) := by
  unfold k0_pay2
  exact slice2_axis0_apply 0 _ _ o q ⟨o.val, by omega⟩ (by simp)

/-- The remaining 320 rows: the second head, transposed. -/
theorem pay3_apply (x0 : Vec Ideal S49x128x256 .f32) (x1 : Vec Ideal S400x256 .f32) (x2 : Vec Ideal S400x1 .f32)
    (o : Fin 320) (q : Fin 128) :
    k0_pay3 x0 x1 x2 (ix2 o q) = k0_pay1 x0 x1 x2 (ix2 (⟨80 + o.val, by omega⟩ : Fin 400) q) := by
  unfold k0_pay3
  exact slice2_axis0_apply 80 _ _ o q ⟨80 + o.val, by omega⟩ rfl

end Cert.KernelIdeal.Body

end
-- ==== Proof.Relayout.lean ====
/-
  The re-arrangements of the arguments that the two programs make before their kernels run, each read at an index
  given by coordinates.

  The feature map `x[n, c, h, w]` reaches one kernel with its 49 positions merged and moved to the FRONT,
  `[49, 1024, 256]` (a transpose then a merge of the two leading axes), and the other with the positions merged in
  place at the BACK, `[1024, 256, 49]`. In both, position `k` is row `k / 7` and column `k % 7` of the map, because
  `7 · (k / 7) + k % 7 = k`. The two weight matrices are stacked by rows (80 then 320), the two bias vectors likewise,
  and the stacked bias is stood up as a column.
-/
import Idealize.ShloMosaic.Lib.Pipeline.Value
import Idealize.ShloMosaic.Lib.ValueIdx
import Idealize.ShloMosaic.Lib.ValueLayout
import proofs.«176235_g2000607049309062_pallasbulk_253_30_alg».proof.Proof.PoolSpec

namespace Cert.Pool

open Idealize.ShloMosaic Idealize.ShloMosaic.ValueIdx

variable {α : Type}

/-- Positions first: `x` transposed to `[7, 7, 1024, 256]` and its two leading axes merged, at `(k, n, c)`, is `x` at
    sample `n`, channel `c`, row `k / 7`, column `k % 7`. -/
theorem positionsFirst_apply (x : Feat.Idx → α) (ht : Feat.Transposes [2, 3, 0, 1] ⟨4, ![7, 7, 1024, 256]⟩)
    (hs : (⟨4, ![7, 7, 1024, 256]⟩ : Shape).ShapeCasts ⟨3, ![49, 1024, 256]⟩) (k : Fin 49) (n : Fin 1024) (c : Fin 256) :
    shapeCast ⟨3, ![49, 1024, 256]⟩ (transpose ⟨4, ![7, 7, 1024, 256]⟩ [2, 3, 0, 1] x ht) hs (ix3 k n c)
      = x (ix4 n c (cellRow k) (cellCol k)) := by
  refine (shapeCast_apply _ hs (ix3 k n c) (ix4 (cellRow k) (cellCol k) n c) ?_).trans ?_
  · rw [Shape.rowMajor_val_four, Shape.rowMajor_val_three]
    show (((k.val / 7) * 7 + k.val % 7) * 1024 + n.val) * 256 + c.val = (k.val * 1024 + n.val) * 256 + c.val
    have hk : k.val / 7 * 7 + k.val % 7 = k.val := Nat.div_add_mod' k.val 7
    rw [hk]
  · exact transpose_apply _ x ht _ (ix4 n c (cellRow k) (cellCol k)) fun b =>
      match b with | ⟨0, _⟩ => rfl | ⟨1, _⟩ => rfl | ⟨2, _⟩ => rfl | ⟨3, _⟩ => rfl

/-- Positions last: `x` with its two trailing axes merged, at `(n, c, k)`, is `x` at row `k / 7`, column `k % 7`. -/
theorem positionsLast_apply (x : Feat.Idx → α) (hs : Feat.ShapeCasts ⟨3, ![1024, 256, 49]⟩)
    (n : Fin 1024) (c : Fin 256) (k : Fin 49) :
    shapeCast ⟨3, ![1024, 256, 49]⟩ x hs (ix3 n c k) = x (ix4 n c (cellRow k) (cellCol k)) := by
  refine shapeCast_apply x hs (ix3 n c k) (ix4 n c (cellRow k) (cellCol k)) ?_
  rw [Shape.rowMajor_val_four, Shape.rowMajor_val_three]
  show ((n.val * 256 + c.val) * 7 + k.val / 7) * 7 + k.val % 7 = (n.val * 256 + c.val) * 49 + k.val
  have hk : k.val / 7 * 7 + k.val % 7 = k.val := Nat.div_add_mod' k.val 7
  omega

/-- The stacked weights, in one of the first 80 rows, are the first matrix. -/
theorem stackedRows_first (a : (⟨2, ![80, 256]⟩ : Shape).Idx → α) (b : (⟨2, ![320, 256]⟩ : Shape).Idx → α)
    (h : Shape.Concatenates [(⟨2, ![80, 256]⟩ : Shape), ⟨2, ![320, 256]⟩] ⟨2, ![400, 256]⟩ 0) (o : Fin 80) (c : Fin 256) :
    concatenate ⟨2, ![400, 256]⟩ 0 [⟨⟨2, ![80, 256]⟩, a⟩, ⟨⟨2, ![320, 256]⟩, b⟩] h (ix2 (⟨o.val, by omega⟩ : Fin 400) c)
      = a (ix2 o c) :=
  concatenate_pair_apply_left 0 a b h _ rfl (ix2 o c) fun d => match d with | ⟨0, _⟩ => rfl | ⟨1, _⟩ => rfl

/-- The stacked weights, in row `80 + o`, are row `o` of the second matrix. -/
theorem stackedRows_second (a : (⟨2, ![80, 256]⟩ : Shape).Idx → α) (b : (⟨2, ![320, 256]⟩ : Shape).Idx → α)
    (h : Shape.Concatenates [(⟨2, ![80, 256]⟩ : Shape), ⟨2, ![320, 256]⟩] ⟨2, ![400, 256]⟩ 0) (o : Fin 320) (c : Fin 256) :
    concatenate ⟨2, ![400, 256]⟩ 0 [⟨⟨2, ![80, 256]⟩, a⟩, ⟨⟨2, ![320, 256]⟩, b⟩] h (ix2 (⟨80 + o.val, by omega⟩ : Fin 400) c)
      = b (ix2 o c) :=
  concatenate_pair_apply_right 0 a b h _ rfl rfl (ix2 o c)
    (fun d hd => match d, hd with | ⟨0, _⟩, hd => absurd rfl hd | ⟨1, _⟩, _ => rfl)
    (show o.val + 80 = 80 + o.val from Nat.add_comm _ _)

/-- The stacked biases, in one of the first 80 places, are the first vector. -/
theorem stackedVec_first (a : (⟨1, ![80]⟩ : Shape).Idx → α) (b : (⟨1, ![320]⟩ : Shape).Idx → α)
    (h : Shape.Concatenates [(⟨1, ![80]⟩ : Shape), ⟨1, ![320]⟩] ⟨1, ![400]⟩ 0) (o : Fin 80) :
    concatenate ⟨1, ![400]⟩ 0 [⟨⟨1, ![80]⟩, a⟩, ⟨⟨1, ![320]⟩, b⟩] h (ix1 (⟨o.val, by omega⟩ : Fin 400)) = a (ix1 o) :=
  concatenate_pair_apply_left 0 a b h _ rfl (ix1 o) fun d => match d with | ⟨0, _⟩ => rfl

/-- The stacked biases, in place `80 + o`, are place `o` of the second vector. -/
theorem stackedVec_second (a : (⟨1, ![80]⟩ : Shape).Idx → α) (b : (⟨1, ![320]⟩ : Shape).Idx → α)
    (h : Shape.Concatenates [(⟨1, ![80]⟩ : Shape), ⟨1, ![320]⟩] ⟨1, ![400]⟩ 0) (o : Fin 320) :
    concatenate ⟨1, ![400]⟩ 0 [⟨⟨1, ![80]⟩, a⟩, ⟨⟨1, ![320]⟩, b⟩] h (ix1 (⟨80 + o.val, by omega⟩ : Fin 400)) = b (ix1 o) :=
  concatenate_pair_apply_right 0 a b h _ rfl rfl (ix1 o)
    (fun d hd => match d, hd with | ⟨0, _⟩, hd => absurd rfl hd)
    (show o.val + 80 = 80 + o.val from Nat.add_comm _ _)

/-- A vector of 400 entries stood up as a `[400, 1]` column, at `(o, 0)`, is entry `o`. -/
theorem column_apply (v : (⟨1, ![400]⟩ : Shape).Idx → α)
    (h : (⟨1, ![400]⟩ : Shape).BroadcastsInDim ⟨2, ![400, 1]⟩ (![0] : Fin 1 → Fin 2)) (o : Fin 400) :
    broadcastInDim ⟨2, ![400, 1]⟩ ![0] h v (ix2 o (0 : Fin 1)) = v (ix1 o) :=
  broadcastInDim_apply _ h v _ (ix1 o) fun d => match d with
    | ⟨0, _⟩ => (if_neg (by decide : ¬ (400 : ℕ) = 1)).symm

end Cert.Pool
-- ==== Proof.KernelArrays.lean ====
/-
  The first program's two results after its run, as the two heads of the arguments.

  Its kernel runs at eight grid points, 128 samples a point, on the feature map with the positions in front, the
  stacked weights and the stacked bias column. What a point leaves in each result buffer is block `t` of ONE function of
  those launch arrays — rows of the stacked heads, samples `128 t … 128 t + 127` along the columns —, the eight blocks tile
  each result array (sample `n` lies in the block of point `n / 128`), so each array ends holding that function. The two
  operations after the kernel transpose the arrays back to samples by outputs; and the launch arrays, read at an index,
  are the arguments: stacked row `o < 80` is row `o` of the first weights and bias, stacked row `80 + o` is row `o` of
  the second, and position `k` of the front axis is row `k / 7`, column `k % 7` of the map.
-/
import proofs.«176235_g2000607049309062_pallasbulk_253_30_alg».proof.Proof.Gen.KernelIdeal.Frame
import proofs.«176235_g2000607049309062_pallasbulk_253_30_alg».proof.Proof.KernelBody
import proofs.«176235_g2000607049309062_pallasbulk_253_30_alg».proof.Proof.Relayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `o` of the stacked heads for sample `n`, from the arrays the kernel is launched on: the positions-first feature
    map `X`, the stacked weights `W`, the stacked bias column `B`. -/
def stackedHead (X : S49x1024x256.Idx → Ideal .f32) (W : S400x256.Idx → Ideal .f32) (B : S400x1.Idx → Ideal .f32)
    (o : Fin 400) (n : Fin 1024) : Ideal .f32 :=
  (∑ c : Fin 256, W (ix2 o c) * ((∑ k : Fin 49, X (ix3 k n c)) * Cert.Pool.scale)) + B (ix2 o (0 : Fin 1))

/-- The kernel's first result array `[80, 1024]`: rows 0 … 79 of the stacked heads. -/
def firstRows (X : S49x1024x256.Idx → Ideal .f32) (W : S400x256.Idx → Ideal .f32) (B : S400x1.Idx → Ideal .f32) :
    S80x1024.Idx → Ideal .f32 :=
  fun i => stackedHead X W B ⟨(i 0).val, by have := idx2_lt0 i; omega⟩ (i 1)

/-- The kernel's second result array `[320, 1024]`: rows 80 … 399 of the stacked heads. -/
def lastRows (X : S49x1024x256.Idx → Ideal .f32) (W : S400x256.Idx → Ideal .f32) (B : S400x1.Idx → Ideal .f32) :
    S320x1024.Idx → Ideal .f32 :=
  fun i => stackedHead X W B ⟨80 + (i 0).val, by have := idx2_lt0 i; omega⟩ (i 1)

/-- Where each window's block sits at grid point `t`: the feature map's and the two results' blocks move along the
    sample axis with the point, 128 samples a point; the weights and the bias are one block. -/
theorem index_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The feature map's block at point `t` holds samples `128 t … 128 t + 127`. -/
theorem featBlock_apply (c : Dev nD) (t : Fin cfg0.N) (k : Fin 49) (q : Fin 128) (ch : Fin 256) (n : Fin 1024)
    (hn : n.val = 128 * t.val + q.val) :
    (iblk m c 0 t : Vec Ideal S49x128x256 .f32) (ix3 k q ch) = (V m c main_v1 : S49x1024x256.Idx → Ideal .f32) (ix3 k n ch) := by
  obtain ⟨e0, e1, e2, -⟩ := index_facts t
  unfold iblk
  rw [View.read_apply]
  show V m c main_v1 _ = V m c main_v1 _
  refine congrArg (V m c main_v1) ?_
  funext a
  apply Fin.ext
  match a with
  | ⟨0, _⟩ => show win0_0.index t (0 : Fin 3) * 49 + 1 * k.val = k.val; rw [e0]; omega
  | ⟨1, _⟩ => show win0_0.index t (1 : Fin 3) * 128 + 1 * q.val = n.val; rw [e1, hn]; omega
  | ⟨2, _⟩ => show win0_0.index t (2 : Fin 3) * 256 + 1 * ch.val = ch.val; rw [e2]; omega

/-- The weights' block is the whole stacked matrix at every point. -/
theorem weightBlock_apply (c : Dev nD) (t : Fin cfg0.N) (o : Fin 400) (ch : Fin 256) :
    (iblk m c 1 t : Vec Ideal S400x256 .f32) (ix2 o ch) = (V m c main_v2 : S400x256.Idx → Ideal .f32) (ix2 o ch) := by
  obtain ⟨-, -, -, e0, e1, -⟩ := index_facts t
  unfold iblk
  rw [View.read_apply]
  show V m c main_v2 _ = V m c main_v2 _
  refine congrArg (V m c main_v2) ?_
  funext a
  apply Fin.ext
  match a with
  | ⟨0, _⟩ => show win0_1.index t (0 : Fin 2) * 400 + 1 * o.val = o.val; rw [e0]; omega
  | ⟨1, _⟩ => show win0_1.index t (1 : Fin 2) * 256 + 1 * ch.val = ch.val; rw [e1]; omega

/-- The bias column's block is the whole column at every point. -/
theorem biasBlock_apply (c : Dev nD) (t : Fin cfg0.N) (o : Fin 400) :
    (iblk m c 2 t : Vec Ideal S400x1 .f32) (ix2 o (0 : Fin 1)) = (V m c main_v4 : S400x1.Idx → Ideal .f32) (ix2 o (0 : Fin 1)) := by
  obtain ⟨-, -, -, -, -, e0, e1, -⟩ := index_facts t
  unfold iblk
  rw [View.read_apply]
  show V m c main_v4 _ = V m c main_v4 _
  refine congrArg (V m c main_v4) ?_
  funext a
  apply Fin.ext
  match a with
  | ⟨0, _⟩ => show win0_2.index t (0 : Fin 2) * 400 + 1 * o.val = o.val; rw [e0]; omega
  | ⟨1, _⟩ => show win0_2.index t (1 : Fin 2) * 1 + 1 * 0 = 0; rw [e1]

/-- The body's result at point `t`, row `o`, column `q` is the stacked head at row `o` for sample `128 t + q`. -/
theorem body_at_point (c : Dev nD) (t : Fin cfg0.N) (o : Fin 400) (q : Fin 128) (n : Fin 1024)
    (hn : n.val = 128 * t.val + q.val) :
    k0_pay1 (iblk m c 0 t) (iblk m c 1 t) (iblk m c 2 t) (ix2 o q)
      = stackedHead (V m c main_v1) (V m c main_v2) (V m c main_v4) o n := by
  refine (Cert.KernelIdeal.Body.pay1_apply (iblk m c 0 t) (iblk m c 1 t) (iblk m c 2 t) o q).trans ?_
  unfold stackedHead
  refine congrArg₂ (· + ·) (Finset.sum_congr rfl fun ch _ => ?_) (biasBlock_apply m c t o)
  refine congrArg₂ (· * ·) (weightBlock_apply m c t o ch) ?_
  exact congrArg (· * Cert.Pool.scale) (Finset.sum_congr rfl fun k _ => featBlock_apply m c t k q ch n hn)

/-! ## What each point writes back, and the arrays after the last point -/

/-- Point `t` writes back, into the first result array, block `t` of the stacked heads' first 80 rows. -/
theorem firstRows_flushed (c : Dev nD) (t : Fin cfg0.N) :
    (dats m 0 c).flushed 3 t
      = ((cfg0.win 3).blk t).view.read (Elt Ideal) (firstRows (V m c main_v1) (V m c main_v2) (V m c main_v4)) := by
  show (cfg0.win 3).cut (grid0.coords t) ((dats m 0 c).after 3 t) = _
  rw [after0_3]
  unfold out0_3
  rw [View.canon_unit_zero hz2]
  simp only [View.ld_unit_zero (S := S49x128x256) hz3, View.ld_unit_zero (S := S400x256) hz2, View.ld_unit_zero (S := S400x1) hz2]
  obtain ⟨-, -, -, -, -, -, -, e0, e1, -⟩ := index_facts t
  have hN : cfg0.N = 8 := N_0
  refine funext fun (j : S80x128.Idx) => ?_
  obtain ⟨o, q, rfl⟩ : ∃ (o : Fin 80) (q : Fin 128), j = ix2 o q := ⟨j 0, j 1, eq_ix2 j⟩
  have hq : 128 * t.val + q.val < 1024 := by have := t.isLt; omega
  have hemb : ((cfg0.win 3).blk t).view.emb (ix2 o q) = (ix2 o (⟨128 * t.val + q.val, hq⟩ : Fin 1024) : S80x1024.Idx) := by
    funext a; apply Fin.ext
    match a with
    | ⟨0, _⟩ => show win0_3.index t (0 : Fin 2) * 80 + 1 * o.val = o.val; rw [e0]; omega
    | ⟨1, _⟩ => show win0_3.index t (1 : Fin 2) * 128 + 1 * q.val = 128 * t.val + q.val; rw [e1]; omega
  show k0_pay2 (iblk m c 0 t) (iblk m c 1 t) (iblk m c 2 t) (ix2 o q)
    = firstRows (V m c main_v1) (V m c main_v2) (V m c main_v4) (((cfg0.win 3).blk t).view.emb (ix2 o q))
  rw [hemb]
  refine (Cert.KernelIdeal.Body.pay2_apply (iblk m c 0 t) (iblk m c 1 t) (iblk m c 2 t) o q).trans ?_
  exact body_at_point m c t ⟨o.val, by omega⟩ q ⟨128 * t.val + q.val, hq⟩ rfl

/-- Point `t` writes back, into the second result array, block `t` of the stacked heads' last 320 rows. -/
theorem lastRows_flushed (c : Dev nD) (t : Fin cfg0.N) :
    (dats m 0 c).flushed 4 t
      = ((cfg0.win 4).blk t).view.read (Elt Ideal) (lastRows (V m c main_v1) (V m c main_v2) (V m c main_v4)) := by
  show (cfg0.win 4).cut (grid0.coords t) ((dats m 0 c).after 4 t) = _
  rw [after0_4]
  unfold out0_4
  rw [View.canon_unit_zero hz2]
  simp only [View.ld_unit_zero (S := S49x128x256) hz3, View.ld_unit_zero (S := S400x256) hz2, View.ld_unit_zero (S := S400x1) hz2]
  obtain ⟨-, -, -, -, -, -, -, -, -, e0, e1⟩ := index_facts t
  have hN : cfg0.N = 8 := N_0
  refine funext fun (j : S320x128.Idx) => ?_
  obtain ⟨o, q, rfl⟩ : ∃ (o : Fin 320) (q : Fin 128), j = ix2 o q := ⟨j 0, j 1, eq_ix2 j⟩
  have hq : 128 * t.val + q.val < 1024 := by have := t.isLt; omega
  have hemb : ((cfg0.win 4).blk t).view.emb (ix2 o q) = (ix2 o (⟨128 * t.val + q.val, hq⟩ : Fin 1024) : S320x1024.Idx) := by
    funext a; apply Fin.ext
    match a with
    | ⟨0, _⟩ => show win0_4.index t (0 : Fin 2) * 320 + 1 * o.val = o.val; rw [e0]; omega
    | ⟨1, _⟩ => show win0_4.index t (1 : Fin 2) * 128 + 1 * q.val = 128 * t.val + q.val; rw [e1]; omega
  show k0_pay3 (iblk m c 0 t) (iblk m c 1 t) (iblk m c 2 t) (ix2 o q)
    = lastRows (V m c main_v1) (V m c main_v2) (V m c main_v4) (((cfg0.win 4).blk t).view.emb (ix2 o q))
  rw [hemb]
  refine (Cert.KernelIdeal.Body.pay3_apply (iblk m c 0 t) (iblk m c 1 t) (iblk m c 2 t) o q).trans ?_
  exact body_at_point m c t ⟨80 + o.val, by omega⟩ q ⟨128 * t.val + q.val, hq⟩ rfl

/-- An index of the first result array is in point `t`'s block iff each coordinate is in the block's range. -/
theorem mem_firstBlk (t : Fin cfg0.N) (i : S80x1024.Idx) :
    i ∈ ((cfg0.win 3).blk t).view.set ↔ ∀ a : Fin 2, win0_3.index t a * S80x128.size a ≤ (i a).val ∧ (i a).val < win0_3.index t a * S80x128.size a + S80x128.size a := by
  show i ∈ ((View.whole main_v5_0).slice (win0_3.rect t)).set ↔ _
  rw [View.set_slice_whole, Rect.mem_set_unit]
  exact Iff.rfl

theorem mem_lastBlk (t : Fin cfg0.N) (i : S320x1024.Idx) :
    i ∈ ((cfg0.win 4).blk t).view.set ↔ ∀ a : Fin 2, win0_4.index t a * S320x128.size a ≤ (i a).val ∧ (i a).val < win0_4.index t a * S320x128.size a + S320x128.size a := by
  show i ∈ ((View.whole main_v5_1).slice (win0_4.rect t)).set ↔ _
  rw [View.set_slice_whole, Rect.mem_set_unit]
  exact Iff.rfl

/-- Every sample column `n` lies in the block of point `n / 128`: the eight blocks tile the first result array. -/
theorem firstRows_cover (i : S80x1024.Idx) :
    ∃ t : Fin cfg0.N, (cfg0.win 3).flush t = true ∧ i ∈ ((cfg0.win 3).blk t).view.set := by
  have hN : cfg0.N = 8 := N_0
  have h0 : (i 0).val < 80 := idx2_lt0 i
  have h1 : (i 1).val < 1024 := idx2_lt1 i
  have hlt : (i 1).val / 128 < cfg0.N := by rw [hN]; omega
  obtain ⟨-, -, -, -, -, -, -, e0, e1, -⟩ := index_facts ⟨(i 1).val / 128, hlt⟩
  refine ⟨⟨(i 1).val / 128, hlt⟩, flush0_3 _, ?_⟩
  rw [mem_firstBlk]
  intro a
  match a with
  | ⟨0, _⟩ =>
    show win0_3.index ⟨(i 1).val / 128, hlt⟩ (0 : Fin 2) * 80 ≤ (i 0).val ∧ (i 0).val < win0_3.index ⟨(i 1).val / 128, hlt⟩ (0 : Fin 2) * 80 + 80
    rw [e0]; omega
  | ⟨1, _⟩ =>
    show win0_3.index ⟨(i 1).val / 128, hlt⟩ (1 : Fin 2) * 128 ≤ (i 1).val ∧ (i 1).val < win0_3.index ⟨(i 1).val / 128, hlt⟩ (1 : Fin 2) * 128 + 128
    rw [e1]; show (i 1).val / 128 * 128 ≤ (i 1).val ∧ (i 1).val < (i 1).val / 128 * 128 + 128; omega

theorem lastRows_cover (i : S320x1024.Idx) :
    ∃ t : Fin cfg0.N, (cfg0.win 4).flush t = true ∧ i ∈ ((cfg0.win 4).blk t).view.set := by
  have hN : cfg0.N = 8 := N_0
  have h0 : (i 0).val < 320 := idx2_lt0 i
  have h1 : (i 1).val < 1024 := idx2_lt1 i
  have hlt : (i 1).val / 128 < cfg0.N := by rw [hN]; omega
  obtain ⟨-, -, -, -, -, -, -, -, -, e0, e1⟩ := index_facts ⟨(i 1).val / 128, hlt⟩
  refine ⟨⟨(i 1).val / 128, hlt⟩, flush0_4 _, ?_⟩
  rw [mem_lastBlk]
  intro a
  match a with
  | ⟨0, _⟩ =>
    show win0_4.index ⟨(i 1).val / 128, hlt⟩ (0 : Fin 2) * 320 ≤ (i 0).val ∧ (i 0).val < win0_4.index ⟨(i 1).val / 128, hlt⟩ (0 : Fin 2) * 320 + 320
    rw [e0]; omega
  | ⟨1, _⟩ =>
    show win0_4.index ⟨(i 1).val / 128, hlt⟩ (1 : Fin 2) * 128 ≤ (i 1).val ∧ (i 1).val < win0_4.index ⟨(i 1).val / 128, hlt⟩ (1 : Fin 2) * 128 + 128
    rw [e1]; show (i 1).val / 128 * 128 ≤ (i 1).val ∧ (i 1).val < (i 1).val / 128 * 128 + 128; omega

/-- After the last point the first result array holds the stacked heads' first 80 rows, -/
theorem firstRows_final (c : Dev nD) :
    (dats m 0 c).arrAt 3 cfg0.N = firstRows (V m c main_v1) (V m c main_v2) (V m c main_v4) :=
  (dats m 0 c).arrAt_eq_of_cover 3 _ (fun t _ => firstRows_flushed m c t) firstRows_cover

/-- and the second the last 320. -/
theorem lastRows_final (c : Dev nD) :
    (dats m 0 c).arrAt 4 cfg0.N = lastRows (V m c main_v1) (V m c main_v2) (V m c main_v4) :=
  (dats m 0 c).arrAt_eq_of_cover 4 _ (fun t _ => lastRows_flushed m c t) lastRows_cover

/-! ## The arrays the kernel is launched on, from the arguments -/

/-- The positions-first feature map is the argument transposed and its two leading axes merged. -/
theorem featArr_eq (c : Dev nD) : (V m c main_v1 : S49x1024x256.Idx → Ideal .f32)
    = shapeCast S49x1024x256 (transpose S7x7x1024x256 [2, 3, 0, 1] (m ((c : Thread nD τ).loc main_arg0))
        transposes_S1024x256x7x7_S7x7x1024x256_2_3_0_1) shapeCasts_S7x7x1024x256_S49x1024x256 := by
  show StableHlo.after hostOps0 (fun b => m (c, b)) (Proc.devRef .tc main_v1) = _
  after_results; rfl

/-- The stacked weights are the two weight matrices one above the other. -/
theorem weightArr_eq (c : Dev nD) : (V m c main_v2 : S400x256.Idx → Ideal .f32)
    = concatenate S400x256 0 [⟨S80x256, m ((c : Thread nD τ).loc main_arg1)⟩, ⟨S320x256, m ((c : Thread nD τ).loc main_arg3)⟩]
        concatenates_S80x256_S320x256_S400x256_d0 := by
  show StableHlo.after hostOps0 (fun b => m (c, b)) (Proc.devRef .tc main_v2) = _
  after_results

/-- The bias column is the two bias vectors end to end, stood up as a column. -/
theorem biasArr_eq (c : Dev nD) : (V m c main_v4 : S400x1.Idx → Ideal .f32)
    = broadcastInDim S400x1 ![0] bcast_S400_S400x1_0
        (concatenate S400 0 [⟨S80, m ((c : Thread nD τ).loc main_arg2)⟩, ⟨S320, m ((c : Thread nD τ).loc main_arg4)⟩]
          concatenates_S80_S320_S400_d0) := by
  show StableHlo.after hostOps0 (fun b => m (c, b)) (Proc.devRef .tc main_v4) = _
  after_results

/-- The program's first result: the first result array transposed. -/
theorem scores_tail (c : Dev nD) :
    Pipeline.afterTail₀ cfgs (dats m) 0 (V0 m) [hostOps1] c main_v6
      = transpose S1024x80 [1, 0] (firstRows (V m c main_v1) (V m c main_v2) (V m c main_v4)) transposes_S80x1024_S1024x80_1_0 := by
  unfold Pipeline.afterTail₀
  show StableHlo.after hostOps1 _ (Proc.devRef .tc main_v6) = _
  after_results
  exact congrArg (fun y => transpose S1024x80 [1, 0] y transposes_S80x1024_S1024x80_1_0)
    ((Pipeline.withArrays_arr spec0 launch0.win.arr_inj c _ _ 3).trans (firstRows_final m c))

/-- The program's second result: the second result array transposed. -/
theorem deltas_tail (c : Dev nD) :
    Pipeline.afterTail₀ cfgs (dats m) 0 (V0 m) [hostOps1] c main_v7
      = transpose S1024x320 [1, 0] (lastRows (V m c main_v1) (V m c main_v2) (V m c main_v4)) transposes_S320x1024_S1024x320_1_0 := by
  unfold Pipeline.afterTail₀
  show StableHlo.after hostOps1 _ (Proc.devRef .tc main_v7) = _
  after_results
  exact congrArg (fun y => transpose S1024x320 [1, 0] y transposes_S320x1024_S1024x320_1_0)
    ((Pipeline.withArrays_arr spec0 launch0.win.arr_inj c _ _ 4).trans (lastRows_final m c))

/-! ## The results as the heads of the arguments -/

/-- A row among the first 80 of the stacked heads is the first head: the stacked weights and biases read there are
    the first matrix and vector, and the positions-first feature map read at `(k, n, c)` is the argument at position `k`. -/
theorem stackedHead_first (c : Dev nD) (o : Fin 80) (n : Fin 1024) (h : o.val < 400) :
    stackedHead (V m c main_v1) (V m c main_v2) (V m c main_v4) ⟨o.val, h⟩ n
      = Cert.Pool.head (m ((c : Thread nD τ).loc main_arg0)) (m ((c : Thread nD τ).loc main_arg1)) (m ((c : Thread nD τ).loc main_arg2)) n o := by
  unfold stackedHead Cert.Pool.head Cert.Pool.pooled Cert.Pool.spatialSum
  rw [featArr_eq, weightArr_eq, biasArr_eq]
  refine congrArg₂ (· + ·) (Finset.sum_congr rfl fun ch _ => ?_) ?_
  · refine congrArg₂ (· * ·) (Cert.Pool.stackedRows_first _ _ _ o ch) ?_
    exact congrArg (· * Cert.Pool.scale) (Finset.sum_congr rfl fun k _ => Cert.Pool.positionsFirst_apply _ _ _ k n ch)
  · exact (Cert.Pool.column_apply _ _ _).trans (Cert.Pool.stackedVec_first _ _ _ o)

/-- Row `80 + o` of the stacked heads is row `o` of the second head. -/
theorem stackedHead_second (c : Dev nD) (o : Fin 320) (n : Fin 1024) (h : 80 + o.val < 400) :
    stackedHead (V m c main_v1) (V m c main_v2) (V m c main_v4) ⟨80 + o.val, h⟩ n
      = Cert.Pool.head (m ((c : Thread nD τ).loc main_arg0)) (m ((c : Thread nD τ).loc main_arg3)) (m ((c : Thread nD τ).loc main_arg4)) n o := by
  unfold stackedHead Cert.Pool.head Cert.Pool.pooled Cert.Pool.spatialSum
  rw [featArr_eq, weightArr_eq, biasArr_eq]
  refine congrArg₂ (· + ·) (Finset.sum_congr rfl fun ch _ => ?_) ?_
  · refine congrArg₂ (· * ·) (Cert.Pool.stackedRows_second _ _ _ o ch) ?_
    exact congrArg (· * Cert.Pool.scale) (Finset.sum_congr rfl fun k _ => Cert.Pool.positionsFirst_apply _ _ _ k n ch)
  · exact (Cert.Pool.column_apply _ _ _).trans (Cert.Pool.stackedVec_second _ _ _ o)

/-- The first result array, transposed back to samples by outputs, is the first head of the arguments. -/
theorem scores_eq (c : Dev nD) :
    transpose S1024x80 [1, 0] (firstRows (V m c main_v1) (V m c main_v2) (V m c main_v4)) transposes_S80x1024_S1024x80_1_0
      = Cert.Pool.headArr (m ((c : Thread nD τ).loc main_arg0)) (m ((c : Thread nD τ).loc main_arg1)) (m ((c : Thread nD τ).loc main_arg2)) := by
  funext i
  obtain ⟨n, o, rfl⟩ : ∃ (n : Fin 1024) (o : Fin 80), i = ix2 n o := ⟨i 0, i 1, eq_ix2 i⟩
  refine (transpose_ix2_apply _ _ n o).trans ?_
  exact stackedHead_first m c o n _

/-- The second likewise is the second head. -/
theorem deltas_eq (c : Dev nD) :
    transpose S1024x320 [1, 0] (lastRows (V m c main_v1) (V m c main_v2) (V m c main_v4)) transposes_S320x1024_S1024x320_1_0
      = Cert.Pool.headArr (m ((c : Thread nD τ).loc main_arg0)) (m ((c : Thread nD τ).loc main_arg3)) (m ((c : Thread nD τ).loc main_arg4)) := by
  funext i
  obtain ⟨n, o, rfl⟩ : ∃ (n : Fin 1024) (o : Fin 320), i = ix2 n o := ⟨i 0, i 1, eq_ix2 i⟩
  refine (transpose_ix2_apply _ _ n o).trans ?_
  exact stackedHead_second m c o n _

/-! ## The run, read -/

/-- Every weakly fair execution of the first program terminates with its two results at the two heads of the
    arguments, and the arguments unchanged. -/
theorem run : θ_run defs (onTc (τ := τ) (main (F := Ideal))) ⟨m, fun _ => 0, ρ⟩ fun r => ∀ c : Dev nD,
      r.2.mem ((c : Thread nD τ).loc main_v6)
        = Cert.Pool.headArr (m ((c : Thread nD τ).loc main_arg0)) (m ((c : Thread nD τ).loc main_arg1)) (m ((c : Thread nD τ).loc main_arg2))
      ∧ r.2.mem ((c : Thread nD τ).loc main_v7)
        = Cert.Pool.headArr (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans ((scores_tail m c).trans (scores_eq m c)),
      ((h c).2 main_v7 (Pipeline.mem_restRefs_of main_v7 (by decide) (by decide))).trans ((deltas_tail m c).trans (deltas_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefPieces.lean ====
/-
  What one run of the second program's kernel body leaves in its two result buffers, as values.

  The body first stores a block of zeros into its scratch buffer, reads it back and adds to it the sum of the feature
  block over the positions, stores that, reads it back once more, scales it, and sends it through the two heads; each
  head's result is stored through the whole of its buffer. Each read-back goes through the very rectangle the store
  before it wrote, so it reads that store's payload; a store through the whole of a buffer leaves its payload. Hence
  each result buffer ends holding the head's formula applied to (the positions' sum added to the zero block).
-/
import proofs.«176235_g2000607049309062_pallasbulk_253_30_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.Pieces

open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first head's buffer after the body: the head of the scaled accumulator, the accumulator being the feature
    block's sum over the positions added to the zero block. -/
theorem firstHead_piece (c : Dev nD) (i : grid0.Coords) (arg2 : Memref sig .tc .vmem S128x256x49 .f32) (harg2 : arg2.IsWhole) (arg3 : Memref sig .tc .vmem S80x256 .f32) (harg3 : arg3.IsWhole) (arg4 : Memref sig .tc .vmem S1x80 .f32) (harg4 : arg4.IsWhole) (arg5 : Memref sig .tc .vmem S320x256 .f32) (harg5 : arg5.IsWhole) (arg6 : Memref sig .tc .vmem S1x320 .f32) (harg6 : arg6.IsWhole) (arg7 : Memref sig .tc .vmem S128x80 .f32) (harg7 : arg7.IsWhole) (arg8 : Memref sig .tc .vmem S128x320 .f32) (harg8 : arg8.IsWhole) (arg9 : Memref sig .tc .vmem S128x256 .f32) (harg9 : arg9.IsWhole) (hc0 : cond0_0 i) (hc1 : cond0_1 i)
    (x0 : Vec F S128x256x49 .f32) (x1 : Vec F S80x256 .f32) (x2 : Vec F S1x80 .f32) (x3 : Vec F S320x256 .f32) (x4 : Vec F S1x320 .f32) :
    out0_A_5 c i arg2 harg2 arg3 harg3 arg4 harg4 arg5 harg5 arg6 harg6 arg7 harg7 arg8 harg8 arg9 harg9 hc0 hc1 x0 x1 x2 x3 x4 = k0_pay4 (k0_pay2 x0 k0_pay1) x1 x2 := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  try sl_unfold_words
  rw [View.canon_unit_zero hz2]
  simp only [View.readCov_cons_toLoadRect, View.readAt_eq_ld, harg2.read_unread, harg3.read_unread, harg4.read_unread,
    View.ld_unit_zero (S := S128x256x49) hz3, View.ld_unit_zero (S := S80x256) hz2, View.ld_unit_zero (S := S1x80) hz2]

/-- The second head's buffer after the body, likewise. -/
theorem secondHead_piece (c : Dev nD) (i : grid0.Coords) (arg2 : Memref sig .tc .vmem S128x256x49 .f32) (harg2 : arg2.IsWhole) (arg3 : Memref sig .tc .vmem S80x256 .f32) (harg3 : arg3.IsWhole) (arg4 : Memref sig .tc .vmem S1x80 .f32) (harg4 : arg4.IsWhole) (arg5 : Memref sig .tc .vmem S320x256 .f32) (harg5 : arg5.IsWhole) (arg6 : Memref sig .tc .vmem S1x320 .f32) (harg6 : arg6.IsWhole) (arg7 : Memref sig .tc .vmem S128x80 .f32) (harg7 : arg7.IsWhole) (arg8 : Memref sig .tc .vmem S128x320 .f32) (harg8 : arg8.IsWhole) (arg9 : Memref sig .tc .vmem S128x256 .f32) (harg9 : arg9.IsWhole) (hc0 : cond0_0 i) (hc1 : cond0_1 i)
    (x0 : Vec F S128x256x49 .f32) (x1 : Vec F S80x256 .f32) (x2 : Vec F S1x80 .f32) (x3 : Vec F S320x256 .f32) (x4 : Vec F S1x320 .f32) :
    out0_A_6 c i arg2 harg2 arg3 harg3 arg4 harg4 arg5 harg5 arg6 harg6 arg7 harg7 arg8 harg8 arg9 harg9 hc0 hc1 x0 x1 x2 x3 x4 = k0_pay5 (k0_pay2 x0 k0_pay1) x3 x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4)]
  unfold kernelRun0_A
  dsimp only
  try sl_unfold_words
  rw [View.canon_unit_zero hz2]
  simp only [View.readCov_cons_toLoadRect, View.readAt_eq_ld, harg2.read_unread, harg5.read_unread, harg6.read_unread,
    View.ld_unit_zero (S := S128x256x49) hz3, View.ld_unit_zero (S := S320x256) hz2, View.ld_unit_zero (S := S1x320) hz2]

end Cert.ReferenceIdeal.Pieces

end
-- ==== Proof.RefBody.lean ====
/-
  The arithmetic of the second program's kernel body, read at an index on the extended reals.

  The accumulator block is the feature block summed over its trailing axis (the 49 positions) and added to the zero
  block; it is multiplied entry by entry by the scale; each head is the product of the scaled accumulator's rows with
  the weights' rows, contracting the 256 channels, plus the bias row repeated down the samples.
-/
import proofs.«176235_g2000607049309062_pallasbulk_253_30_alg».proof.Proof.Gen.ReferenceIdeal.Skeleton
import proofs.«176235_g2000607049309062_pallasbulk_253_30_alg».proof.Proof.PoolSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Body

open Idealize.ShloMosaic Idealize.ShloMosaic.ValueIdx Cert.ReferenceIdeal Cert.ReferenceIdeal.Gen

/-- The first head's dimension record: rows of the scaled accumulator against rows of the weights. -/
abbrev D80 : DotDims S128x256 S80x256 S128x80 := dot_S128x256_S80x256_S128x80_1_1_0_0_n_n
/-- The second head's. -/
abbrev D320 : DotDims S128x256 S320x256 S128x320 := dot_S128x256_S320x256_S128x320_1_1_0_0_n_n

/-- The sum over the trailing axis (the 49 positions) of a `[128, 256, 49]` block, at sample `p` and channel `c`. -/
theorem trailSum_apply (v : FVec Ideal S128x256x49 .f32) (h : S128x256x49.Reduces [2] S128x256) (hφ : FKind.Formats .f32)
    (hacc : (0x00000000#32 : BitVec 32) = FKind.add.neutral .f32 hφ) (p : Fin 128) (c : Fin 256) :
    multiReduction .add [2] S128x256 v 0x00000000#32 h hφ hacc (ix2 p c) = ∑ k : Fin 49, v (ix3 p c k) := by
  refine (Ideal.multiReduction_add_single v 0x00000000#32 h hφ hacc (ix2 p c)).trans ?_
  show ∑ k : Fin 49, v (h.lift (ix2 p c) k) = _
  refine Finset.sum_congr rfl fun k _ => congrArg v ?_
  funext a; apply Fin.ext
  match a with
  | ⟨0, _⟩ => rfl
  | ⟨1, _⟩ => rfl
  | ⟨2, _⟩ => rfl

/-- The accumulator the body builds from a feature block: the zero it stored, plus the block's sum over the positions. -/
theorem acc_apply (x0 : Vec Ideal S128x256x49 .f32) (p : Fin 128) (c : Fin 256) :
    k0_pay2 x0 (k0_pay1 (F := Ideal)) (ix2 p c) = Ideal.ofBits .f32 0x00000000#32 + ∑ k : Fin 49, x0 (ix3 p c k) := by
  unfold k0_pay2 k0_pay1
  simp only [shapeCast_self]
  refine (addf_apply _ _ _).trans ?_
  exact congrArg (Ideal.ofBits .f32 0x00000000#32 + ·) (trailSum_apply x0 _ _ _ p c)

/-- The scaled accumulator at an entry. -/
theorem scaled_apply (v : Vec Ideal S128x256 .f32) (p : Fin 128) (c : Fin 256) :
    k0_pay3 v (ix2 p c) = v (ix2 p c) * Cert.Pool.scale := rfl

/-- The left operand's index (the scaled accumulator) at output `(p, o)` and channel `c` is `(p, c)`. -/
theorem lhsIdx80_eq (p : Fin 128) (o : Fin 80) (c : Fin 256) :
    D80.lhsIdx (ix2 p o) ((contrEquiv1 D80 256 rfl rfl).symm c) = ix2 p c := by
  funext a; apply Fin.ext
  match a with
  | ⟨0, _⟩ => rfl
  | ⟨1, _⟩ => exact (D80.lhsIdx_val_of_single rfl _ _).trans (contrEquiv1_symm_val D80 256 rfl rfl c)

/-- The right operand's index (the weights) at output `(p, o)` and channel `c` is `(o, c)`. -/
theorem rhsIdx80_eq (p : Fin 128) (o : Fin 80) (c : Fin 256) :
    D80.rhsIdx (ix2 p o) ((contrEquiv1 D80 256 rfl rfl).symm c) = ix2 o c := by
  funext a; apply Fin.ext
  match a with
  | ⟨0, _⟩ => rfl
  | ⟨1, _⟩ => exact (D80.rhsIdx_val_of_single rfl _ _).trans (contrEquiv1_symm_val D80 256 rfl rfl c)

/-- The head with 80 outputs on an accumulator block `v`: at sample `p` and output `o`, the scaled accumulator's row
    against the weights' row, plus the bias row's entry. -/
theorem head80_apply (v : Vec Ideal S128x256 .f32) (x1 : Vec Ideal S80x256 .f32) (x2 : Vec Ideal S1x80 .f32)
    (p : Fin 128) (o : Fin 80) :
    k0_pay4 v x1 x2 (ix2 p o)
      = (∑ c : Fin 256, (v (ix2 p c) * Cert.Pool.scale) * x1 (ix2 o c)) + x2 (ix2 (0 : Fin 1) o) := by
  unfold k0_pay4
  simp only [shapeCast_self]
  refine (addf_apply _ _ _).trans ?_
  refine congrArg₂ (· + ·) ?_ (broadcastTo_1b_ab_apply x2 _ p o)
  refine (Ideal.matmul_constant_zero_apply D80 none _ x1 (ix2 p o)).trans ?_
  refine (Equiv.sum_comp (contrEquiv1 D80 256 rfl rfl).symm _).symm.trans ?_
  refine Finset.sum_congr rfl fun c _ => ?_
  refine congrArg₂ (· * ·) ?_ (congrArg x1 (rhsIdx80_eq p o c))
  exact (congrArg (k0_pay3 v) (lhsIdx80_eq p o c)).trans (scaled_apply v p c)

/-- The same on the accumulator the body builds from a feature block `x0`: the positions' sum added to the zero. -/
theorem body80_apply (x0 : Vec Ideal S128x256x49 .f32) (x1 : Vec Ideal S80x256 .f32) (x2 : Vec Ideal S1x80 .f32)
    (p : Fin 128) (o : Fin 80) :
    k0_pay4 (k0_pay2 x0 (k0_pay1 (F := Ideal))) x1 x2 (ix2 p o)
      = (∑ c : Fin 256, ((Ideal.ofBits .f32 0x00000000#32 + ∑ k : Fin 49, x0 (ix3 p c k)) * Cert.Pool.scale) * x1 (ix2 o c))
        + x2 (ix2 (0 : Fin 1) o) := by
  refine (head80_apply (k0_pay2 x0 (k0_pay1 (F := Ideal))) x1 x2 p o).trans ?_
  refine congrArg (· + x2 (ix2 (0 : Fin 1) o)) (Finset.sum_congr rfl fun c _ => ?_)
  exact congrArg (fun z => z * Cert.Pool.scale * x1 (ix2 o c)) (acc_apply x0 p c)

/-- The left operand's index (the scaled accumulator) at output `(p, o)` and channel `c` is `(p, c)`. -/
theorem lhsIdx320_eq (p : Fin 128) (o : Fin 320) (c : Fin 256) :
    D320.lhsIdx (ix2 p o) ((contrEquiv1 D320 256 rfl rfl).symm c) = ix2 p c := by
  funext a; apply Fin.ext
  match a with
  | ⟨0, _⟩ => rfl
  | ⟨1, _⟩ => exact (D320.lhsIdx_val_of_single rfl _ _).trans (contrEquiv1_symm_val D320 256 rfl rfl c)

/-- The right operand's index (the weights) at output `(p, o)` and channel `c` is `(o, c)`. -/
theorem rhsIdx320_eq (p : Fin 128) (o : Fin 320) (c : Fin 256) :
    D320.rhsIdx (ix2 p o) ((contrEquiv1 D320 256 rfl rfl).symm c) = ix2 o c := by
  funext a; apply Fin.ext
  match a with
  | ⟨0, _⟩ => rfl
  | ⟨1, _⟩ => exact (D320.rhsIdx_val_of_single rfl _ _).trans (contrEquiv1_symm_val D320 256 rfl rfl c)

/-- The head with 320 outputs on an accumulator block `v`: at sample `p` and output `o`, the scaled accumulator's row
    against the weights' row, plus the bias row's entry. -/
theorem head320_apply (v : Vec Ideal S128x256 .f32) (x1 : Vec Ideal S320x256 .f32) (x2 : Vec Ideal S1x320 .f32)
    (p : Fin 128) (o : Fin 320) :
    k0_pay5 v x1 x2 (ix2 p o)
      = (∑ c : Fin 256, (v (ix2 p c) * Cert.Pool.scale) * x1 (ix2 o c)) + x2 (ix2 (0 : Fin 1) o) := by
  unfold k0_pay5
  simp only [shapeCast_self]
  refine (addf_apply _ _ _).trans ?_
  refine congrArg₂ (· + ·) ?_ (broadcastTo_1b_ab_apply x2 _ p o)
  refine (Ideal.matmul_constant_zero_apply D320 none _ x1 (ix2 p o)).trans ?_
  refine (Equiv.sum_comp (contrEquiv1 D320 256 rfl rfl).symm _).symm.trans ?_
  refine Finset.sum_congr rfl fun c _ => ?_
  refine congrArg₂ (· * ·) ?_ (congrArg x1 (rhsIdx320_eq p o c))
  exact (congrArg (k0_pay3 v) (lhsIdx320_eq p o c)).trans (scaled_apply v p c)

/-- The same on the accumulator the body builds from a feature block `x0`: the positions' sum added to the zero. -/
theorem body320_apply (x0 : Vec Ideal S128x256x49 .f32) (x1 : Vec Ideal S320x256 .f32) (x2 : Vec Ideal S1x320 .f32)
    (p : Fin 128) (o : Fin 320) :
    k0_pay5 (k0_pay2 x0 (k0_pay1 (F := Ideal))) x1 x2 (ix2 p o)
      = (∑ c : Fin 256, ((Ideal.ofBits .f32 0x00000000#32 + ∑ k : Fin 49, x0 (ix3 p c k)) * Cert.Pool.scale) * x1 (ix2 o c))
        + x2 (ix2 (0 : Fin 1) o) := by
  refine (head320_apply (k0_pay2 x0 (k0_pay1 (F := Ideal))) x1 x2 p o).trans ?_
  refine congrArg (· + x2 (ix2 (0 : Fin 1) o)) (Finset.sum_congr rfl fun c _ => ?_)
  exact congrArg (fun z => z * Cert.Pool.scale * x1 (ix2 o c)) (acc_apply x0 p c)

end Cert.ReferenceIdeal.Body

end
-- ==== Proof.RefArrays.lean ====
/-
  The second program's two result arrays after its run, as the two heads of the arguments.

  Its kernel runs at eight grid points, 128 samples a point, on the feature map with the positions merged at the back,
  the two weight matrices as they are, and each bias vector laid as one row. What a point leaves in each result
  buffer (the pieces the body's run found, read as values) is block `t` of ONE function of the launch arrays; the
  eight blocks tile each result array; so each array ends holding that function, which — the launch arrays read back
  at an index as the arguments, `0 + s = s`, `a · b = b · a` — is the head of the arguments.
-/
import proofs.«176235_g2000607049309062_pallasbulk_253_30_alg».proof.Proof.Gen.ReferenceIdeal.Frame
import proofs.«176235_g2000607049309062_pallasbulk_253_30_alg».proof.Proof.RefPieces
import proofs.«176235_g2000607049309062_pallasbulk_253_30_alg».proof.Proof.RefBody
import proofs.«176235_g2000607049309062_pallasbulk_253_30_alg».proof.Proof.Relayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.ReferenceIdeal.Arrays

open Cert.ReferenceIdeal Cert.ReferenceIdeal.Gen Idealize.ShloMosaic.ValueIdx

variable (m : (ℓ : Loc nD τ sig) → Buf (Elt Ideal) ℓ) (ρ : Dev nD → PrngReg)

/-- Output `o` of sample `n` of a head with `O` outputs, from the arrays the kernel is launched on: the positions-last feature map `X`, the weights
    `W`, the bias as one row `B`; the positions' sum is added to a zero and each product has the pooled value first. -/
def headAt (O : ℕ) (X : S1024x256x49.Idx → Ideal .f32) (W : (⟨2, ![O, 256]⟩ : Shape).Idx → Ideal .f32)
    (B : (⟨2, ![1, O]⟩ : Shape).Idx → Ideal .f32) (n : Fin 1024) (o : Fin O) : Ideal .f32 :=
  (∑ ch : Fin 256, ((Ideal.ofBits .f32 0x00000000#32 + ∑ k : Fin 49, X (ix3 n ch k)) * Cert.Pool.scale) * W (ix2 o ch))
    + B (ix2 (0 : Fin 1) o)

/-- The same as a `[1024, O]` array. -/
def regionHead (O : ℕ) (X : S1024x256x49.Idx → Ideal .f32) (W : (⟨2, ![O, 256]⟩ : Shape).Idx → Ideal .f32)
    (B : (⟨2, ![1, O]⟩ : Shape).Idx → Ideal .f32) : (⟨2, ![1024, O]⟩ : Shape).Idx → Ideal .f32 :=
  fun i => headAt O X W B (i 0) (i 1)

/-- Where each window's block sits at grid point `t`: the feature map's and the two results' blocks move along the
    sample axis with the point; the weights and the bias rows are one block each. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature map's block at point `t` holds samples `128 t … 128 t + 127`. -/
theorem featBlock_apply (c : Dev nD) (t : Fin cfg0.N) (p : Fin 128) (ch : Fin 256) (k : Fin 49) (n : Fin 1024)
    (hn : n.val = 128 * t.val + p.val) :
    (iblk m c 0 t : Vec Ideal S128x256x49 .f32) (ix3 p ch k) = (V m c main_v2 : S1024x256x49.Idx → Ideal .f32) (ix3 n ch k) := by
  obtain ⟨e0, e1, e2, -⟩ := index_facts t
  unfold iblk
  rw [View.read_apply]
  show V m c main_v2 _ = V m c main_v2 _
  refine congrArg (V m c main_v2) ?_
  funext a
  apply Fin.ext
  match a with
  | ⟨0, _⟩ => show win0_0.index t (0 : Fin 3) * 128 + 1 * p.val = n.val; rw [e0, hn]; omega
  | ⟨1, _⟩ => show win0_0.index t (1 : Fin 3) * 256 + 1 * ch.val = ch.val; rw [e1]; omega
  | ⟨2, _⟩ => show win0_0.index t (2 : Fin 3) * 49 + 1 * k.val = k.val; rw [e2]; omega

/-! The weights' and the bias rows' blocks are the whole arrays at every point. -/

theorem weight80Block_apply (c : Dev nD) (t : Fin cfg0.N) (o : Fin 80) (ch : Fin 256) :
    (iblk m c 1 t : Vec Ideal S80x256 .f32) (ix2 o ch) = (V m c main_arg1 : S80x256.Idx → Ideal .f32) (ix2 o ch) := by
  have hf := index_facts t
  unfold iblk
  rw [View.read_apply]
  show V m c main_arg1 _ = V m c main_arg1 _
  refine congrArg (V m c main_arg1) ?_
  funext a
  apply Fin.ext
  match a with
  | ⟨0, _⟩ => show win0_1.index t (0 : Fin 2) * 80 + 1 * o.val = o.val; rw [hf.2.2.2.1]; omega
  | ⟨1, _⟩ => show win0_1.index t (1 : Fin 2) * 256 + 1 * ch.val = ch.val; rw [hf.2.2.2.2.1]; omega

theorem bias80Block_apply (c : Dev nD) (t : Fin cfg0.N) (o : Fin 80) :
    (iblk m c 2 t : Vec Ideal S1x80 .f32) (ix2 (0 : Fin 1) o) = (V m c main_v0 : S1x80.Idx → Ideal .f32) (ix2 (0 : Fin 1) o) := by
  have hf := index_facts t
  unfold iblk
  rw [View.read_apply]
  show V m c main_v0 _ = V m c main_v0 _
  refine congrArg (V m c main_v0) ?_
  funext a
  apply Fin.ext
  match a with
  | ⟨0, _⟩ => show win0_2.index t (0 : Fin 2) * 1 + 1 * 0 = 0; rw [hf.2.2.2.2.2.1]
  | ⟨1, _⟩ => show win0_2.index t (1 : Fin 2) * 80 + 1 * o.val = o.val; rw [hf.2.2.2.2.2.2.1]; omega

theorem weight320Block_apply (c : Dev nD) (t : Fin cfg0.N) (o : Fin 320) (ch : Fin 256) :
    (iblk m c 3 t : Vec Ideal S320x256 .f32) (ix2 o ch) = (V m c main_arg3 : S320x256.Idx → Ideal .f32) (ix2 o ch) := by
  have hf := index_facts t
  unfold iblk
  rw [View.read_apply]
  show V m c main_arg3 _ = V m c main_arg3 _
  refine congrArg (V m c main_arg3) ?_
  funext a
  apply Fin.ext
  match a with
  | ⟨0, _⟩ => show win0_3.index t (0 : Fin 2) * 320 + 1 * o.val = o.val; rw [hf.2.2.2.2.2.2.2.1]; omega
  | ⟨1, _⟩ => show win0_3.index t (1 : Fin 2) * 256 + 1 * ch.val = ch.val; rw [hf.2.2.2.2.2.2.2.2.1]; omega

theorem bias320Block_apply (c : Dev nD) (t : Fin cfg0.N) (o : Fin 320) :
    (iblk m c 4 t : Vec Ideal S1x320 .f32) (ix2 (0 : Fin 1) o) = (V m c main_v1 : S1x320.Idx → Ideal .f32) (ix2 (0 : Fin 1) o) := by
  have hf := index_facts t
  unfold iblk
  rw [View.read_apply]
  show V m c main_v1 _ = V m c main_v1 _
  refine congrArg (V m c main_v1) ?_
  funext a
  apply Fin.ext
  match a with
  | ⟨0, _⟩ => show win0_4.index t (0 : Fin 2) * 1 + 1 * 0 = 0; rw [hf.2.2.2.2.2.2.2.2.2.1]
  | ⟨1, _⟩ => show win0_4.index t (1 : Fin 2) * 320 + 1 * o.val = o.val; rw [hf.2.2.2.2.2.2.2.2.2.2.1]; omega

/-! ## What each point writes back, and the arrays after the last point -/

/-- Point `t` writes back, into the result with 80 outputs, block `t` of the head of the launch arrays. -/
theorem scores_flushed (c : Dev nD) (t : Fin cfg0.N) :
    (dats m 0 c).flushed 5 t
      = ((cfg0.win 5).blk t).view.read (Elt Ideal) (regionHead 80 (V m c main_v2) (V m c main_arg1) (V m c main_v0)) := by
  show (cfg0.win 5).cut (grid0.coords t) ((dats m 0 c).after 5 t) = _
  rw [after0_5]
  have hpiece := Cert.ReferenceIdeal.Pieces.firstHead_piece (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) scM0_0 (Memref.isWhole_whole _) (hcond0_0 t) (hcond0_1 t)
    (iblk m c 0 t) (iblk m c 1 t) (iblk m c 2 t) (iblk m c 3 t) (iblk m c 4 t)
  obtain ⟨-, -, -, -, -, -, -, -, -, -, -, e0, e1, -⟩ := index_facts t
  have hN : cfg0.N = 8 := N_0
  refine funext fun (j : S128x80.Idx) => ?_
  obtain ⟨p, o, rfl⟩ : ∃ (p : Fin 128) (o : Fin 80), j = ix2 p o := ⟨j 0, j 1, eq_ix2 j⟩
  have hp : 128 * t.val + p.val < 1024 := by have := t.isLt; omega
  have hemb : ((cfg0.win 5).blk t).view.emb (ix2 p o) = (ix2 (⟨128 * t.val + p.val, hp⟩ : Fin 1024) o : S1024x80.Idx) := by
    funext a; apply Fin.ext
    match a with
    | ⟨0, _⟩ => show win0_5.index t (0 : Fin 2) * 128 + 1 * p.val = 128 * t.val + p.val; rw [e0]; omega
    | ⟨1, _⟩ => show win0_5.index t (1 : Fin 2) * 80 + 1 * o.val = o.val; rw [e1]; omega
  show (outsAt0 m c t).1 (ix2 p o)
    = regionHead 80 (V m c main_v2) (V m c main_arg1) (V m c main_v0) (((cfg0.win 5).blk t).view.emb (ix2 p o))
  rw [hemb]
  refine (congrFun hpiece (ix2 p o)).trans ?_
  refine (Cert.ReferenceIdeal.Body.body80_apply (iblk m c 0 t) (iblk m c 1 t) (iblk m c 2 t) p o).trans ?_
  show _ = headAt 80 (V m c main_v2) (V m c main_arg1) (V m c main_v0) ⟨128 * t.val + p.val, hp⟩ o
  unfold headAt
  refine congrArg₂ (· + ·) (Finset.sum_congr rfl fun ch _ => ?_) (bias80Block_apply m c t o)
  refine congrArg₂ (· * ·) ?_ (weight80Block_apply m c t o ch)
  exact congrArg (fun s => (Ideal.ofBits .f32 0x00000000#32 + s) * Cert.Pool.scale)
    (Finset.sum_congr rfl fun k _ => featBlock_apply m c t p ch k ⟨128 * t.val + p.val, hp⟩ rfl)

/-- An index of that result array is in point `t`'s block iff each coordinate is in the block's range. -/
theorem mem_scoresBlk (t : Fin cfg0.N) (i : S1024x80.Idx) :
    i ∈ ((cfg0.win 5).blk t).view.set ↔ ∀ a : Fin 2, win0_5.index t a * S128x80.size a ≤ (i a).val ∧ (i a).val < win0_5.index t a * S128x80.size a + S128x80.size a := by
  show i ∈ ((View.whole main_v3_0).slice (win0_5.rect t)).set ↔ _
  rw [View.set_slice_whole, Rect.mem_set_unit]
  exact Iff.rfl

/-- Every sample row `n` lies in the block of point `n / 128`: the eight blocks tile the array. -/
theorem scores_cover (i : S1024x80.Idx) :
    ∃ t : Fin cfg0.N, (cfg0.win 5).flush t = true ∧ i ∈ ((cfg0.win 5).blk t).view.set := by
  have hN : cfg0.N = 8 := N_0
  have h0 : (i 0).val < 1024 := idx2_lt0 i
  have h1 : (i 1).val < 80 := idx2_lt1 i
  have hlt : (i 0).val / 128 < cfg0.N := by rw [hN]; omega
  obtain ⟨-, -, -, -, -, -, -, -, -, -, -, e0, e1, -⟩ := index_facts ⟨(i 0).val / 128, hlt⟩
  refine ⟨⟨(i 0).val / 128, hlt⟩, flush0_5 _, ?_⟩
  rw [mem_scoresBlk]
  intro a
  match a with
  | ⟨0, _⟩ =>
    show win0_5.index ⟨(i 0).val / 128, hlt⟩ (0 : Fin 2) * 128 ≤ (i 0).val ∧ (i 0).val < win0_5.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_5.index ⟨(i 0).val / 128, hlt⟩ (1 : Fin 2) * 80 ≤ (i 1).val ∧ (i 1).val < win0_5.index ⟨(i 0).val / 128, hlt⟩ (1 : Fin 2) * 80 + 80
    rw [e1]; omega

/-- After the last point that result array holds the head of the launch arrays. -/
theorem scores_final (c : Dev nD) :
    (dats m 0 c).arrAt 5 cfg0.N = regionHead 80 (V m c main_v2) (V m c main_arg1) (V m c main_v0) :=
  (dats m 0 c).arrAt_eq_of_cover 5 _ (fun t _ => scores_flushed m c t) scores_cover

set_option maxHeartbeats 1000000 in
/-- Point `t` writes back, into the result with 320 outputs, block `t` of the head of the launch arrays. -/
theorem deltas_flushed (c : Dev nD) (t : Fin cfg0.N) :
    (dats m 0 c).flushed 6 t
      = ((cfg0.win 6).blk t).view.read (Elt Ideal) (regionHead 320 (V m c main_v2) (V m c main_arg3) (V m c main_v1)) := by
  show (cfg0.win 6).cut (grid0.coords t) ((dats m 0 c).after 6 t) = _
  rw [after0_6]
  have hpiece := Cert.ReferenceIdeal.Pieces.secondHead_piece (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) scM0_0 (Memref.isWhole_whole _) (hcond0_0 t) (hcond0_1 t)
    (iblk m c 0 t) (iblk m c 1 t) (iblk m c 2 t) (iblk m c 3 t) (iblk m c 4 t)
  obtain ⟨-, -, -, -, -, -, -, -, -, -, -, -, -, e0, e1⟩ := index_facts t
  have hN : cfg0.N = 8 := N_0
  refine funext fun (j : S128x320.Idx) => ?_
  obtain ⟨p, o, rfl⟩ : ∃ (p : Fin 128) (o : Fin 320), j = ix2 p o := ⟨j 0, j 1, eq_ix2 j⟩
  have hp : 128 * t.val + p.val < 1024 := by have := t.isLt; omega
  have hemb : ((cfg0.win 6).blk t).view.emb (ix2 p o) = (ix2 (⟨128 * t.val + p.val, hp⟩ : Fin 1024) o : S1024x320.Idx) := by
    funext a; apply Fin.ext
    match a with
    | ⟨0, _⟩ => show win0_6.index t (0 : Fin 2) * 128 + 1 * p.val = 128 * t.val + p.val; rw [e0]; omega
    | ⟨1, _⟩ => show win0_6.index t (1 : Fin 2) * 320 + 1 * o.val = o.val; rw [e1]; omega
  show (outsAt0 m c t).2 (ix2 p o)
    = regionHead 320 (V m c main_v2) (V m c main_arg3) (V m c main_v1) (((cfg0.win 6).blk t).view.emb (ix2 p o))
  rw [hemb]
  refine (congrFun hpiece (ix2 p o)).trans ?_
  refine (Cert.ReferenceIdeal.Body.body320_apply (iblk m c 0 t) (iblk m c 3 t) (iblk m c 4 t) p o).trans ?_
  show _ = headAt 320 (V m c main_v2) (V m c main_arg3) (V m c main_v1) ⟨128 * t.val + p.val, hp⟩ o
  unfold headAt
  refine congrArg₂ (· + ·) (Finset.sum_congr rfl fun ch _ => ?_) (bias320Block_apply m c t o)
  refine congrArg₂ (· * ·) ?_ (weight320Block_apply m c t o ch)
  exact congrArg (fun s => (Ideal.ofBits .f32 0x00000000#32 + s) * Cert.Pool.scale)
    (Finset.sum_congr rfl fun k _ => featBlock_apply m c t p ch k ⟨128 * t.val + p.val, hp⟩ rfl)

/-- An index of that result array is in point `t`'s block iff each coordinate is in the block's range. -/
theorem mem_deltasBlk (t : Fin cfg0.N) (i : S1024x320.Idx) :
    i ∈ ((cfg0.win 6).blk t).view.set ↔ ∀ a : Fin 2, win0_6.index t a * S128x320.size a ≤ (i a).val ∧ (i a).val < win0_6.index t a * S128x320.size a + S128x320.size a := by
  show i ∈ ((View.whole main_v3_1).slice (win0_6.rect t)).set ↔ _
  rw [View.set_slice_whole, Rect.mem_set_unit]
  exact Iff.rfl

/-- Every sample row `n` lies in the block of point `n / 128`: the eight blocks tile the array. -/
theorem deltas_cover (i : S1024x320.Idx) :
    ∃ t : Fin cfg0.N, (cfg0.win 6).flush t = true ∧ i ∈ ((cfg0.win 6).blk t).view.set := by
  have hN : cfg0.N = 8 := N_0
  have h0 : (i 0).val < 1024 := idx2_lt0 i
  have h1 : (i 1).val < 320 := idx2_lt1 i
  have hlt : (i 0).val / 128 < cfg0.N := by rw [hN]; omega
  obtain ⟨-, -, -, -, -, -, -, -, -, -, -, -, -, e0, e1⟩ := index_facts ⟨(i 0).val / 128, hlt⟩
  refine ⟨⟨(i 0).val / 128, hlt⟩, flush0_6 _, ?_⟩
  rw [mem_deltasBlk]
  intro a
  match a with
  | ⟨0, _⟩ =>
    show win0_6.index ⟨(i 0).val / 128, hlt⟩ (0 : Fin 2) * 128 ≤ (i 0).val ∧ (i 0).val < win0_6.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_6.index ⟨(i 0).val / 128, hlt⟩ (1 : Fin 2) * 320 ≤ (i 1).val ∧ (i 1).val < win0_6.index ⟨(i 0).val / 128, hlt⟩ (1 : Fin 2) * 320 + 320
    rw [e1]; omega

/-- After the last point that result array holds the head of the launch arrays. -/
theorem deltas_final (c : Dev nD) :
    (dats m 0 c).arrAt 6 cfg0.N = regionHead 320 (V m c main_v2) (V m c main_arg3) (V m c main_v1) :=
  (dats m 0 c).arrAt_eq_of_cover 6 _ (fun t _ => deltas_flushed m c t) deltas_cover

/-! ## The launch arrays from the arguments -/

/-- The positions-last feature map is the argument with its two trailing axes merged. -/
theorem featArr_eq (c : Dev nD) : (V m c main_v2 : S1024x256x49.Idx → Ideal .f32)
    = shapeCast S1024x256x49 (m ((c : Thread nD τ).loc main_arg0)) shapeCasts_S1024x256x7x7_S1024x256x49 := by
  show StableHlo.after hostOps0 (fun b => m (c, b)) (Proc.devRef .tc main_v2) = _
  after_results; rfl

/-- The first bias as one row. -/
theorem bias80Row_eq (c : Dev nD) : (V m c main_v0 : S1x80.Idx → Ideal .f32)
    = shapeCast S1x80 (m ((c : Thread nD τ).loc main_arg2)) shapeCasts_S80_S1x80 := by
  show StableHlo.after hostOps0 (fun b => m (c, b)) (Proc.devRef .tc main_v0) = _
  after_results; rfl

/-- The second bias as one row. -/
theorem bias320Row_eq (c : Dev nD) : (V m c main_v1 : S1x320.Idx → Ideal .f32)
    = shapeCast S1x320 (m ((c : Thread nD τ).loc main_arg4)) shapeCasts_S320_S1x320 := by
  show StableHlo.after hostOps0 (fun b => m (c, b)) (Proc.devRef .tc main_v1) = _
  after_results; rfl

/-! ## The results as the heads of the arguments -/

/-- The head of the launch arrays with 80 outputs is the head of the arguments: the positions-last feature map read at
    `(n, c, k)` is the argument at position `k`, the bias row read at `(0, o)` is the bias vector at `o`, and the two
    spellings of the head agree on the extended reals. -/
theorem scores_eq (c : Dev nD) :
    regionHead 80 (V m c main_v2) (V m c main_arg1) (V m c main_v0)
      = Cert.Pool.headArr (m ((c : Thread nD τ).loc main_arg0)) (m ((c : Thread nD τ).loc main_arg1)) (m ((c : Thread nD τ).loc main_arg2)) := by
  funext i
  obtain ⟨n, o, rfl⟩ : ∃ (n : Fin 1024) (o : Fin 80), i = ix2 n o := ⟨i 0, i 1, eq_ix2 i⟩
  refine Eq.trans ?_ (Cert.Pool.head_of_zero_add_comm (m ((c : Thread nD τ).loc main_arg0)) (m ((c : Thread nD τ).loc main_arg1)) (m ((c : Thread nD τ).loc main_arg2)) n o)
  show headAt 80 (V m c main_v2) (V m c main_arg1) (V m c main_v0) n o = _
  unfold headAt
  rw [featArr_eq, V_main_arg1 m c, bias80Row_eq]
  refine congrArg₂ (· + ·) (Finset.sum_congr rfl fun ch _ => ?_) (shapeCast_a_1a_apply _ _ (0 : Fin 1) o)
  refine congrArg (· * (m ((c : Thread nD τ).loc main_arg1)) (ix2 o ch)) ?_
  refine congrArg (fun s => (Ideal.ofBits .f32 0x00000000#32 + s) * Cert.Pool.scale) ?_
  unfold Cert.Pool.spatialSum
  exact Finset.sum_congr rfl fun k _ => Cert.Pool.positionsLast_apply _ _ n ch k

/-- The head of the launch arrays with 320 outputs is the head of the arguments: the positions-last feature map read at
    `(n, c, k)` is the argument at position `k`, the bias row read at `(0, o)` is the bias vector at `o`, and the two
    spellings of the head agree on the extended reals. -/
theorem deltas_eq (c : Dev nD) :
    regionHead 320 (V m c main_v2) (V m c main_arg3) (V m c main_v1)
      = Cert.Pool.headArr (m ((c : Thread nD τ).loc main_arg0)) (m ((c : Thread nD τ).loc main_arg3)) (m ((c : Thread nD τ).loc main_arg4)) := by
  funext i
  obtain ⟨n, o, rfl⟩ : ∃ (n : Fin 1024) (o : Fin 320), i = ix2 n o := ⟨i 0, i 1, eq_ix2 i⟩
  refine Eq.trans ?_ (Cert.Pool.head_of_zero_add_comm (m ((c : Thread nD τ).loc main_arg0)) (m ((c : Thread nD τ).loc main_arg3)) (m ((c : Thread nD τ).loc main_arg4)) n o)
  show headAt 320 (V m c main_v2) (V m c main_arg3) (V m c main_v1) n o = _
  unfold headAt
  rw [featArr_eq, V_main_arg3 m c, bias320Row_eq]
  refine congrArg₂ (· + ·) (Finset.sum_congr rfl fun ch _ => ?_) (shapeCast_a_1a_apply _ _ (0 : Fin 1) o)
  refine congrArg (· * (m ((c : Thread nD τ).loc main_arg3)) (ix2 o ch)) ?_
  refine congrArg (fun s => (Ideal.ofBits .f32 0x00000000#32 + s) * Cert.Pool.scale) ?_
  unfold Cert.Pool.spatialSum
  exact Finset.sum_congr rfl fun k _ => Cert.Pool.positionsLast_apply _ _ n ch k

/-! ## The run, read -/

/-- Every weakly fair execution of the second program terminates with its two results at the two heads of the
    arguments, and the arguments unchanged. -/
theorem run : θ_run defs (onTc (τ := τ) (main (F := Ideal))) ⟨m, fun _ => 0, ρ⟩ fun r => ∀ c : Dev nD,
      r.2.mem ((c : Thread nD τ).loc main_v3_0)
        = Cert.Pool.headArr (m ((c : Thread nD τ).loc main_arg0)) (m ((c : Thread nD τ).loc main_arg1)) (m ((c : Thread nD τ).loc main_arg2))
      ∧ r.2.mem ((c : Thread nD τ).loc main_v3_1)
        = Cert.Pool.headArr (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 5).trans ((scores_final m c).trans (scores_eq m c)),
      ((h c).1 6).trans ((deltas_final m c).trans (deltas_eq m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.ReferenceIdeal.Arrays

end
-- ==== Proof.lean ====
/-
  Two programs for a detection head on 1024 region features: a feature map `x[n, c, h, w]` (256 channels, 7 × 7
  positions) is averaged over its 49 positions and the pooled vector goes through two linear heads,
  `scores[n, o] = Σ_c w_cls[o, c] · pooled[n, c] + b_cls[o]` (80 outputs) and the same with `w_pred`, `b_pred` (320).

  The first program moves the positions to the front of the feature map, stacks the two weight matrices and the two
  biases into one matrix of 400 rows and one column, and in each of eight blocks of 128 samples sums the 49 slabs,
  scales, multiplies the stacked weights by the pooled block, adds the bias column, and cuts the 400 result rows into
  the two heads — transposed, samples along the columns; after the kernel both results are transposed back.
  The second program merges the positions at the back, and in each block of 128 samples stores a zero accumulator,
  adds the sum over the positions to it, scales, and multiplies the pooled block by each weight matrix, adding each
  bias as a row.

  Read on the extended reals both compute, at sample `n` and output `o`,
  `Σ_c w[o, c] · ((Σ_k x[n, c, k / 7, k % 7]) · s) + b[o]`, `s` the one single-precision word near 1/49 that both carry:
  the orders of the two sums are the sums' own, `0 + t = t`, and `a · b = b · a`; none of this needs a finite input.
  The statement that the first program's idealization preserves it has no conjunct (nothing was rewritten).

  Each program's run is taken from its frame: what a grid point leaves in a result buffer is one block of ONE function of
  the arrays the kernel is launched on; the eight blocks tile each result array; the launch arrays, read at an index,
  are the arguments (`KernelArrays`, `RefArrays`; the function itself is `PoolSpec`).
-/
import proofs.«176235_g2000607049309062_pallasbulk_253_30_alg».proof.Defs
import proofs.«176235_g2000607049309062_pallasbulk_253_30_alg».proof.Proof.Gen.Kernel
import proofs.«176235_g2000607049309062_pallasbulk_253_30_alg».proof.Proof.Gen.Kernel.Frame
import proofs.«176235_g2000607049309062_pallasbulk_253_30_alg».proof.Proof.Gen.KernelIdeal
import proofs.«176235_g2000607049309062_pallasbulk_253_30_alg».proof.Proof.Gen.KernelIdeal.Frame
import proofs.«176235_g2000607049309062_pallasbulk_253_30_alg».proof.Proof.Gen.ReferenceIdeal
import proofs.«176235_g2000607049309062_pallasbulk_253_30_alg».proof.Proof.Gen.ReferenceIdeal.Frame
import proofs.«176235_g2000607049309062_pallasbulk_253_30_alg».proof.Proof.Gen.Pre_finite_inputs
import proofs.«176235_g2000607049309062_pallasbulk_253_30_alg».proof.Proof.KernelArrays
import proofs.«176235_g2000607049309062_pallasbulk_253_30_alg».proof.Proof.RefArrays

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Nothing of the first program was rewritten for the extended reals. -/
theorem preserves : Cert.preserves_Kernel_KernelIdeal := trivial

/-- On the extended reals, from memories that agree on the arguments, both programs end with the two heads of the
    arguments in their results. -/
theorem algebraic : Cert.algebraic_KernelIdeal_ReferenceIdeal := by
  intro m ρ m' ρ' _ hagree
  refine ⟨fun c => Cert.Pool.headArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Pool.headArr (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ?_) (Cert.ReferenceIdeal.Arrays.run m' ρ')
  obtain ⟨h0, h1, h2, h3, h4, h5, h6⟩ := h c
  obtain ⟨a0, a1, a2, a3, a4⟩ := hagree c
  refine ⟨h0.trans ?_, h1.trans ?_, h2, h3, h4, h5, h6⟩
  · rw [a0, a1, a2]
  · rw [a0, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
